-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024 : Shape := ⟨2, ![8, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x1024x1024 .f32) (main_arg1 : IVec S8x1024 1) (main_arg2 : FVec F S1x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S8x1024x1024 : Shape := ⟨3, ![8, 1024, 1024]⟩
abbrev S8x1024 : Shape := ⟨2, ![8, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8x1x1024 : Shape := ⟨3, ![8, 1, 1024]⟩
abbrev S1x256x256 : Shape := ⟨3, ![1, 256, 256]⟩
abbrev S1x1x256 : Shape := ⟨3, ![1, 1, 256]⟩
abbrev S256x256 : Shape := ⟨2, ![256, 256]⟩
abbrev S256x1x256 : Shape := ⟨3, ![256, 1, 256]⟩
abbrev S1x32x1 : Shape := ⟨3, ![1, 32, 1]⟩
abbrev S256x32x256 : Shape := ⟨3, ![256, 32, 256]⟩
abbrev S1x1 : Shape := ⟨2, ![1, 1]⟩
abbrev S256 : Shape := ⟨1, ![256]⟩
abbrev S256x1 : Shape := ⟨2, ![256, 1]⟩
abbrev S1x256 : Shape := ⟨2, ![1, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i1⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S8x1024, .f32⟩
  | .hbm, ⟨9, _⟩ => ⟨S8x1x1024, .f32⟩
  | .hbm, ⟨10, _⟩ => ⟨S8x1024x1024, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x32, .f32⟩
  | .local _ .vmem, ⟨9, _⟩ => ⟨S32, .f32⟩
  | .local _ .vmem, ⟨10, _⟩ => ⟨S32x32, .f32⟩
  | .local _ .vmem, ⟨11, _⟩ => ⟨S32, .f32⟩
  | .local _ .vmem, ⟨12, _⟩ => ⟨S32x1, .f32⟩
  | .local _ .vmem, ⟨13, _⟩ => ⟨S1, .f32⟩
  | .local _ .vmem, ⟨14, _⟩ => ⟨S1x256x256, .f32⟩
  | .local _ .vmem, ⟨15, _⟩ => ⟨S1x256x256, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  shapeCasts_S8x1024_S8x1x1024 : S8x1024.ShapeCasts S8x1x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  transposes_S256x256_p1_0_S256x256 : S256x256.Transposes [1, 0] S256x256
  inb_S1x32_S1x32_0_0 : ∀ a, (![0, 0] : Fin 2 → Nat) a + S1x32.size a ≤ S1x32.size a
  h_S1x32 : 0 < S1x32.numel
  shapeCasts_S1x32_S32 : S1x32.ShapeCasts S32
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  inpos_S1_p0 : ∀ a, (![0] : Fin 1 → Nat) a < S1.size a
  shapeCasts_S256x256_S256x1x256 : S256x256.ShapeCasts S256x1x256
  shapeCasts_S32_S1x32x1 : S32.ShapeCasts S1x32x1
  broadcasts_S256x1x256_S256x32x256 : S256x1x256.Broadcasts S256x32x256
  broadcasts_S1x32x1_S256x32x256 : S1x32x1.Broadcasts S256x32x256
  slices_S32x32_o0_0_S32x1 : S32x32.Slices ![0, 0] S32x1
  shapeCasts_S32x1_S32 : S32x1.ShapeCasts S32
  reduces_S256x32x256_S256x256 : S256x32x256.Reduces [1] S256x256
  slices_S32_o0_S1 : S32.Slices ![0] S1
  slices_S32x1_o0_0_S1x1 : S32x1.Slices ![0, 0] S1x1
  inpos_S1x1_p0_0 : ∀ a, (![0, 0] : Fin 2 → Nat) a < S1x1.size a
  slices_S32x32_o0_1_S32x1 : S32x32.Slices ![0, 1] S32x1
  slices_S32_o1_S1 : S32.Slices ![1] S1
  slices_S32x1_o1_0_S1x1 : S32x1.Slices ![1, 0] S1x1
  slices_S32x32_o0_2_S32x1 : S32x32.Slices ![0, 2] S32x1
  slices_S32_o2_S1 : S32.Slices ![2] S1
  slices_S32x1_o2_0_S1x1 : S32x1.Slices ![2, 0] S1x1
  slices_S32x32_o0_3_S32x1 : S32x32.Slices ![0, 3] S32x1
  slices_S32_o3_S1 : S32.Slices ![3] S1
  slices_S32x1_o3_0_S1x1 : S32x1.Slices ![3, 0] S1x1
  slices_S32x32_o0_4_S32x1 : S32x32.Slices ![0, 4] S32x1
  slices_S32_o4_S1 : S32.Slices ![4] S1
  slices_S32x1_o4_0_S1x1 : S32x1.Slices ![4, 0] S1x1
  slices_S32x32_o0_5_S32x1 : S32x32.Slices ![0, 5] S32x1
  slices_S32_o5_S1 : S32.Slices ![5] S1
  slices_S32x1_o5_0_S1x1 : S32x1.Slices ![5, 0] S1x1
  slices_S32x32_o0_6_S32x1 : S32x32.Slices ![0, 6] S32x1
  slices_S32_o6_S1 : S32.Slices ![6] S1
  slices_S32x1_o6_0_S1x1 : S32x1.Slices ![6, 0] S1x1
  slices_S32x32_o0_7_S32x1 : S32x32.Slices ![0, 7] S32x1
  slices_S32_o7_S1 : S32.Slices ![7] S1
  slices_S32x1_o7_0_S1x1 : S32x1.Slices ![7, 0] S1x1
  slices_S32x32_o0_8_S32x1 : S32x32.Slices ![0, 8] S32x1
  slices_S32_o8_S1 : S32.Slices ![8] S1
  slices_S32x1_o8_0_S1x1 : S32x1.Slices ![8, 0] S1x1
  slices_S32x32_o0_9_S32x1 : S32x32.Slices ![0, 9] S32x1
  slices_S32_o9_S1 : S32.Slices ![9] S1
  slices_S32x1_o9_0_S1x1 : S32x1.Slices ![9, 0] S1x1
  slices_S32x32_o0_10_S32x1 : S32x32.Slices ![0, 10] S32x1
  slices_S32_o10_S1 : S32.Slices ![10] S1
  slices_S32x1_o10_0_S1x1 : S32x1.Slices ![10, 0] S1x1
  slices_S32x32_o0_11_S32x1 : S32x32.Slices ![0, 11] S32x1
  slices_S32_o11_S1 : S32.Slices ![11] S1
  slices_S32x1_o11_0_S1x1 : S32x1.Slices ![11, 0] S1x1
  slices_S32x32_o0_12_S32x1 : S32x32.Slices ![0, 12] S32x1
  slices_S32_o12_S1 : S32.Slices ![12] S1
  slices_S32x1_o12_0_S1x1 : S32x1.Slices ![12, 0] S1x1
  slices_S32x32_o0_13_S32x1 : S32x32.Slices ![0, 13] S32x1
  slices_S32_o13_S1 : S32.Slices ![13] S1
  slices_S32x1_o13_0_S1x1 : S32x1.Slices ![13, 0] S1x1
  slices_S32x32_o0_14_S32x1 : S32x32.Slices ![0, 14] S32x1
  slices_S32_o14_S1 : S32.Slices ![14] S1
  slices_S32x1_o14_0_S1x1 : S32x1.Slices ![14, 0] S1x1
  slices_S32x32_o0_15_S32x1 : S32x32.Slices ![0, 15] S32x1
  slices_S32_o15_S1 : S32.Slices ![15] S1
  slices_S32x1_o15_0_S1x1 : S32x1.Slices ![15, 0] S1x1
  slices_S32x32_o0_16_S32x1 : S32x32.Slices ![0, 16] S32x1
  slices_S32_o16_S1 : S32.Slices ![16] S1
  slices_S32x1_o16_0_S1x1 : S32x1.Slices ![16, 0] S1x1
  slices_S32x32_o0_17_S32x1 : S32x32.Slices ![0, 17] S32x1
  slices_S32_o17_S1 : S32.Slices ![17] S1
  slices_S32x1_o17_0_S1x1 : S32x1.Slices ![17, 0] S1x1
  slices_S32x32_o0_18_S32x1 : S32x32.Slices ![0, 18] S32x1
  slices_S32_o18_S1 : S32.Slices ![18] S1
  slices_S32x1_o18_0_S1x1 : S32x1.Slices ![18, 0] S1x1
  slices_S32x32_o0_19_S32x1 : S32x32.Slices ![0, 19] S32x1
  slices_S32_o19_S1 : S32.Slices ![19] S1
  slices_S32x1_o19_0_S1x1 : S32x1.Slices ![19, 0] S1x1
  slices_S32x32_o0_20_S32x1 : S32x32.Slices ![0, 20] S32x1
  slices_S32_o20_S1 : S32.Slices ![20] S1
  slices_S32x1_o20_0_S1x1 : S32x1.Slices ![20, 0] S1x1
  slices_S32x32_o0_21_S32x1 : S32x32.Slices ![0, 21] S32x1
  slices_S32_o21_S1 : S32.Slices ![21] S1
  slices_S32x1_o21_0_S1x1 : S32x1.Slices ![21, 0] S1x1
  slices_S32x32_o0_22_S32x1 : S32x32.Slices ![0, 22] S32x1
  slices_S32_o22_S1 : S32.Slices ![22] S1
  slices_S32x1_o22_0_S1x1 : S32x1.Slices ![22, 0] S1x1
  slices_S32x32_o0_23_S32x1 : S32x32.Slices ![0, 23] S32x1
  slices_S32_o23_S1 : S32.Slices ![23] S1
  slices_S32x1_o23_0_S1x1 : S32x1.Slices ![23, 0] S1x1
  slices_S32x32_o0_24_S32x1 : S32x32.Slices ![0, 24] S32x1
  slices_S32_o24_S1 : S32.Slices ![24] S1
  slices_S32x1_o24_0_S1x1 : S32x1.Slices ![24, 0] S1x1
  slices_S32x32_o0_25_S32x1 : S32x32.Slices ![0, 25] S32x1
  slices_S32_o25_S1 : S32.Slices ![25] S1
  slices_S32x1_o25_0_S1x1 : S32x1.Slices ![25, 0] S1x1
  slices_S32x32_o0_26_S32x1 : S32x32.Slices ![0, 26] S32x1
  slices_S32_o26_S1 : S32.Slices ![26] S1
  slices_S32x1_o26_0_S1x1 : S32x1.Slices ![26, 0] S1x1
  slices_S32x32_o0_27_S32x1 : S32x32.Slices ![0, 27] S32x1
  slices_S32_o27_S1 : S32.Slices ![27] S1
  slices_S32x1_o27_0_S1x1 : S32x1.Slices ![27, 0] S1x1
  slices_S32x32_o0_28_S32x1 : S32x32.Slices ![0, 28] S32x1
  slices_S32_o28_S1 : S32.Slices ![28] S1
  slices_S32x1_o28_0_S1x1 : S32x1.Slices ![28, 0] S1x1
  slices_S32x32_o0_29_S32x1 : S32x32.Slices ![0, 29] S32x1
  slices_S32_o29_S1 : S32.Slices ![29] S1
  slices_S32x1_o29_0_S1x1 : S32x1.Slices ![29, 0] S1x1
  slices_S32x32_o0_30_S32x1 : S32x32.Slices ![0, 30] S32x1
  slices_S32_o30_S1 : S32.Slices ![30] S1
  slices_S32x1_o30_0_S1x1 : S32x1.Slices ![30, 0] S1x1
  slices_S32x32_o0_31_S32x1 : S32x32.Slices ![0, 31] S32x1
  slices_S32_o31_S1 : S32.Slices ![31] S1
  slices_S32x1_o31_0_S1x1 : S32x1.Slices ![31, 0] S1x1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S256 : S1x1x256.ShapeCasts S256
  shapeCasts_S256_S256x1 : S256.ShapeCasts S256x1
  shapeCasts_S256_S1x256 : S256.ShapeCasts S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  natLt_1_32 : 1 < 32
  shapeCasts_S256x256_S1x256x256 : S256x256.ShapeCasts S1x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x1024x1024.size a
  hwx0_0 : ∀ i : grid0.Coords, EltTy.bits .f32 = 32 ∨ (Rect.block (s := S8x1024x1024) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x1024x1024.size a
  hwx0_1 : ∀ i : grid0.Coords, EltTy.bits .f32 = 32 ∨ (Rect.block (s := S8x1024x1024) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x1024.size a
  hwx0_2 : ∀ i : grid0.Coords, EltTy.bits .f32 = 32 ∨ (Rect.block (s := S8x1x1024) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x1024.size a
  hwx0_3 : ∀ i : grid0.Coords, EltTy.bits .f32 = 32 ∨ (Rect.block (s := S8x1x1024) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x256.size a ≤ S8x1024x1024.size a
  hwx0_10 : ∀ i : grid0.Coords, EltTy.bits .f32 = 32 ∨ (Rect.block (s := S8x1024x1024) S1x256x256.size (cc0_transform_10 i) (hinb0_10 i)).WholeWords (EltTy.packing .f32)

variable [Facts₀]

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x256x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x1024 : Shape := ⟨2, ![8, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8x1024x1 : Shape := ⟨3, ![8, 1024, 1]⟩
abbrev S8x1x1024 : Shape := ⟨3, ![8, 1, 1024]⟩
abbrev S8x1024x1024x1 : Shape := ⟨4, ![8, 1024, 1024, 1]⟩
abbrev S1x1x1x32 : Shape := ⟨4, ![1, 1, 1, 32]⟩
abbrev S8x1024x1024x32 : Shape := ⟨4, ![8, 1024, 1024, 32]⟩
abbrev S_ : Shape := ⟨0, ![]⟩
abbrev S1x1x1x1 : Shape := ⟨4, ![1, 1, 1, 1]⟩
abbrev S1024x1024 : Shape := ⟨2, ![1024, 1024]⟩
abbrev S1x1024x1024 : Shape := ⟨3, ![1, 1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i1⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S8x1024x1, .i1⟩
  | .hbm, ⟨9, _⟩ => ⟨S8x1x1024, .i1⟩
  | .hbm, ⟨10, _⟩ => ⟨S8x1024x1024, .i1⟩
  | .hbm, ⟨11, _⟩ => ⟨S8x1024x1024, .i1⟩
  | .hbm, ⟨12, _⟩ => ⟨S8x1024x1024, .i1⟩
  | .hbm, ⟨13, _⟩ => ⟨S8x1024x1024x1, .f32⟩
  | .hbm, ⟨14, _⟩ => ⟨S32, .f32⟩
  | .hbm, ⟨15, _⟩ => ⟨S1x1x1x32, .f32⟩
  | .hbm, ⟨16, _⟩ => ⟨S8x1024x1024x32, .f32⟩
  | .hbm, ⟨17, _⟩ => ⟨S8x1024x1024x32, .f32⟩
  | .hbm, ⟨18, _⟩ => ⟨S8x1024x1024x32, .f32⟩
  | .hbm, ⟨19, _⟩ => ⟨S1x1x1x32, .f32⟩
  | .hbm, ⟨20, _⟩ => ⟨S8x1024x1024x32, .f32⟩
  | .hbm, ⟨21, _⟩ => ⟨S8x1024x1024x32, .f32⟩
  | .hbm, ⟨22, _⟩ => ⟨S_, .f32⟩
  | .hbm, ⟨23, _⟩ => ⟨S8x1024x1024x32, .f32⟩
  | .hbm, ⟨24, _⟩ => ⟨S8x1024x1024x32, .f32⟩
  | .hbm, ⟨25, _⟩ => ⟨S8x1024x1024x32, .f32⟩
  | .hbm, ⟨26, _⟩ => ⟨S1x1x1x32, .f32⟩
  | .hbm, ⟨27, _⟩ => ⟨S8x1024x1024x32, .f32⟩
  | .hbm, ⟨28, _⟩ => ⟨S8x1024x1024x32, .f32⟩
  | .hbm, ⟨29, _⟩ => ⟨S_, .f32⟩
  | .hbm, ⟨30, _⟩ => ⟨S8x1024x1024x32, .f32⟩
  | .hbm, ⟨31, _⟩ => ⟨S8x1024x1024x32, .f32⟩
  | .hbm, ⟨32, _⟩ => ⟨S8x1024x1024x1, .f32⟩
  | .hbm, ⟨33, _⟩ => ⟨S1x1x1x1, .f32⟩
  | .hbm, ⟨34, _⟩ => ⟨S8x1024x1024x1, .f32⟩
  | .hbm, ⟨35, _⟩ => ⟨S8x1024x1024x1, .f32⟩
  | .hbm, ⟨36, _⟩ => ⟨S8x1024x1024x1, .f32⟩
  | .hbm, ⟨37, _⟩ => ⟨S8x1024x1024x1, .f32⟩
  | .hbm, ⟨38, _⟩ => ⟨S_, .f32⟩
  | .hbm, ⟨39, _⟩ => ⟨S8x1024x1024x1, .f32⟩
  | .hbm, ⟨40, _⟩ => ⟨S8x1024x1024x1, .f32⟩
  | .hbm, ⟨41, _⟩ => ⟨S_, .f32⟩
  | .hbm, ⟨42, _⟩ => ⟨S8x1024x1024x1, .f32⟩
  | .hbm, ⟨43, _⟩ => ⟨S8x1024x1024x1, .f32⟩
  | .hbm, ⟨44, _⟩ => ⟨S8x1024x1024, .f32⟩
  | .hbm, ⟨45, _⟩ => ⟨S_, .f32⟩
  | .hbm, ⟨46, _⟩ => ⟨S8x1024x1024, .f32⟩
  | .hbm, ⟨47, _⟩ => ⟨S8x1024x1024, .f32⟩
  | .hbm, ⟨48, _⟩ => ⟨S8x1024x1024, .f32⟩
  | .hbm, ⟨49, _⟩ => ⟨S8x1024x1024, .f32⟩
  | .hbm, ⟨50, _⟩ => ⟨S_, .f32⟩
  | .hbm, ⟨51, _⟩ => ⟨S8x1024x1024, .f32⟩
  | .hbm, ⟨52, _⟩ => ⟨S8x1024x1024, .f32⟩
  | .hbm, ⟨53, _⟩ => ⟨S1024x1024, .i32⟩
  | .hbm, ⟨54, _⟩ => ⟨S1024x1024, .i32⟩
  | .hbm, ⟨55, _⟩ => ⟨S_, .i32⟩
  | .hbm, ⟨56, _⟩ => ⟨S1024x1024, .i32⟩
  | .hbm, ⟨57, _⟩ => ⟨S1024x1024, .i32⟩
  | .hbm, ⟨58, _⟩ => ⟨S1024x1024, .i1⟩
  | .hbm, ⟨59, _⟩ => ⟨S1024x1024, .f32⟩
  | .hbm, ⟨60, _⟩ => ⟨S_, .f32⟩
  | .hbm, ⟨61, _⟩ => ⟨S1024x1024, .f32⟩
  | .hbm, ⟨62, _⟩ => ⟨S1024x1024, .f32⟩
  | .hbm, ⟨63, _⟩ => ⟨S1x1024x1024, .f32⟩
  | .hbm, ⟨64, _⟩ => ⟨S8x1024x1024, .f32⟩
  | .hbm, ⟨65, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S8x1024x1024_S8x1024x1024x1_0_1_2 : S8x1024x1024.BroadcastsInDim S8x1024x1024x1 (![0, 1, 2] : Fin 3 → Fin S8x1024x1024x1.rank)
  shapeCasts_S1x32_S32 : S1x32.ShapeCasts S32
  bcast_S32_S1x1x1x32_3 : S32.BroadcastsInDim S1x1x1x32 (![3] : Fin 1 → Fin S1x1x1x32.rank)
  bcast_S8x1024x1024x1_S8x1024x1024x32_0_1_2_3 : S8x1024x1024x1.BroadcastsInDim S8x1024x1024x32 (![0, 1, 2, 3] : Fin 4 → Fin S8x1024x1024x32.rank)
  bcast_S1x1x1x32_S8x1024x1024x32_0_1_2_3 : S1x1x1x32.BroadcastsInDim S8x1024x1024x32 (![0, 1, 2, 3] : Fin 4 → Fin S8x1024x1024x32.rank)
  bcast_S_S8x1024x1024x32 : S_.BroadcastsInDim S8x1024x1024x32 (![] : Fin 0 → Fin S8x1024x1024x32.rank)
  bcast_S1_S1x1x1x1_3 : S1.BroadcastsInDim S1x1x1x1 (![3] : Fin 1 → Fin S1x1x1x1.rank)
  bcast_S1x1x1x1_S8x1024x1024x1_0_1_2_3 : S1x1x1x1.BroadcastsInDim S8x1024x1024x1 (![0, 1, 2, 3] : Fin 4 → Fin S8x1024x1024x1.rank)
  bcast_S_S8x1024x1024x1 : S_.BroadcastsInDim S8x1024x1024x1 (![] : Fin 0 → Fin S8x1024x1024x1.rank)
  shapeCasts_S8x1024x1024x1_S8x1024x1024 : S8x1024x1024x1.ShapeCasts S8x1024x1024
  bcast_S_S8x1024x1024 : S_.BroadcastsInDim S8x1024x1024 (![] : Fin 0 → Fin S8x1024x1024.rank)
  transposes_S8x1024x1024_S8x1024x1024_0_2_1 : S8x1024x1024.Transposes [0, 2, 1] S8x1024x1024
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  dot_S8x1024x1024x32_S32x32_S8x1024x1024x32_3_0_012_1_n_n_wf : DotDims.WF S8x1024x1024x32 S32x32 S8x1024x1024x32 [3] [0] [0, 1, 2] [1] [] []
  dot_S8x1024x1024x32_S32x1_S8x1024x1024x1_3_0_012_1_n_n_wf : DotDims.WF S8x1024x1024x32 S32x1 S8x1024x1024x1 [3] [0] [0, 1, 2] [1] [] []

variable [Facts₀]

def dot_S8x1024x1024x32_S32x32_S8x1024x1024x32_3_0_012_1_n_n : DotDims S8x1024x1024x32 S32x32 S8x1024x1024x32 where
  lhsContracting := [3]
  rhsContracting := [0]
  lhsNonContracting := [0, 1, 2]
  rhsNonContracting := [1]
  lhsBatch := []
  rhsBatch := []
  wf := dot_S8x1024x1024x32_S32x32_S8x1024x1024x32_3_0_012_1_n_n_wf
def dot_S8x1024x1024x32_S32x1_S8x1024x1024x1_3_0_012_1_n_n : DotDims S8x1024x1024x32 S32x1 S8x1024x1024x1 where
  lhsContracting := [3]
  rhsContracting := [0]
  lhsNonContracting := [0, 1, 2]
  rhsNonContracting := [1]
  lhsBatch := []
  rhsBatch := []
  wf := dot_S8x1024x1024x32_S32x1_S8x1024x1024x1_3_0_012_1_n_n_wf

class Facts : Prop extends Facts₀ where

variable [Facts]
-- ==== Proof.K.Entry.lean ====
/-
  The program up to its one region. Two host operations run first: the node mask is converted from bits to floats
  (0 or 1) and reshaped to [8,1,1024]; then the region is entered. `V` names what every buffer holds at that moment;
  no host operation writes an argument array, so each is found as launched.
-/
import proofs.«173317_j58007828300453_2_alg».proof.Proof.Gen.Kernel.Launch
import proofs.«173317_j58007828300453_2_alg».proof.Proof.Gen.Kernel.Skeleton
import proofs.«173317_j58007828300453_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the two host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.BlockK.lean ====
/-
  The value one grid point stores, as one function of the vectors its loads return.

  The kernel's body loads the tile x of the similarity array at block (b, i, j), the tile y at block (b, j, i), the
  two mask rows and the six weight arrays, and stores one tile. The generated payload definitions cut that
  computation into pieces; here the pieces are composed in the body's order:
  `scoreTile` is the logistic of the perceptron applied to every entry of x, `scoreTileT` the same for the
  transpose of y, and `storedTile` is one half of their sum times the outer product of the two mask rows times the
  indicator that the global row and column numbers differ.
-/
import proofs.«173317_j58007828300453_2_alg».proof.Proof.Gen.Kernel.Skeleton

noncomputable section

namespace Cert.Kernel.Block

open Idealize.ShloMosaic Cert.Kernel Cert.Kernel.Gen

variable {F : FTy → Type} [FloatOps F]

/-- The score of every entry of the tile `v0` (weights `v5 v7 v8 v9 v10 v11` = w1 b1 w2 b2 w3 b3). -/
def scoreTile (v0 : Vec F S1x256x256 .f32) (v5 : Vec F S1x32 .f32) (v7 : Vec F S32 .f32) (v8 : Vec F S32x32 .f32) (v9 : Vec F S32 .f32) (v10 : Vec F S32x1 .f32) (v11 : Vec F S1 .f32) : FVec F S256x256 .f32 :=
  have v12 := k0_pay4 v11
  have v22 := k0_pay5 v0 v5 v7
  have v23 := k0_pay6 v11
  have v35 := k0_pay7 v0 v5 v7 v8 v9
  have v38 := k0_pay8 v10
  have v91 := k0_pay9 v8 v9 v10 v22 v23 v35 v38
  have v92 := k0_pay10 v8
  have v142 := k0_pay11 v8 v9 v10 v22 v91 v92
  have v146 := k0_pay12 v8
  have v193 := k0_pay13 v8 v9 v10 v22 v142 v146
  have v199 := k0_pay14 v8 v22
  have v244 := k0_pay15 v8 v9 v10 v22 v193 v199
  have v250 := k0_pay16 v8 v22
  have v253 := k0_pay17 v9
  have v295 := k0_pay18 v8 v9 v10 v22 v244 v250 v253
  have v305 := k0_pay19 v8 v9 v22
  have v306 := k0_pay20 (F := F)
  have v346 := k0_pay21 v8 v9 v10 v22 v295 v305 v306
  have v358 := k0_pay22 v8 v9 v22
  have v360 := k0_pay23 v10
  have v414 := k0_pay24 v8 v9 v10 v22 v346 v358 v360
  have v465 := k0_pay25 v8 v9 v10 v22 v414
  have v468 := k0_pay26 v8
  have v516 := k0_pay27 v8 v9 v10 v22 v465 v468
  have v521 := k0_pay28 v8 v22
  k0_pay29 v8 v9 v10 v22 v516 v521

/-- The score of every entry of the transpose of the tile `v2`. -/
def scoreTileT (v2 : Vec F S1x256x256 .f32) (v5 : Vec F S1x32 .f32) (v7 : Vec F S32 .f32) (v8 : Vec F S32x32 .f32) (v9 : Vec F S32 .f32) (v10 : Vec F S32x1 .f32) (v11 : Vec F S1 .f32) : FVec F S256x256 .f32 :=
  have v4 := k0_pay2 v2
  have v6 := k0_pay3 v5
  have v12 := k0_pay4 v11
  have v576 := k0_pay30 v4 v6 v7
  have v578 := k0_pay31 v576
  have v613 := k0_pay32 v8 v9 v10 v12 v576
  have v629 := k0_pay33 v8 v9 v10 v576
  have v681 := k0_pay34 v8 v9 v10 v578 v613 v629
  have v683 := k0_pay35 v8
  have v732 := k0_pay36 v8 v9 v10 v578 v681 v683
  have v737 := k0_pay37 v8 v578
  have v783 := k0_pay38 v8 v9 v10 v578 v732 v737
  have v789 := k0_pay39 v8 v578
  have v790 := k0_pay40 v9
  have v834 := k0_pay41 v8 v9 v10 v578 v783 v789 v790
  have v844 := k0_pay42 v8 v9 v578
  have v885 := k0_pay43 v8 v9 v10 v578 v834 v844
  have v897 := k0_pay44 v8 v9 v578
  have v936 := k0_pay45 v8 v9 v10 v578 v885 v897
  have v948 := k0_pay46 v8 v9 v578
  have v951 := k0_pay47 v10
  have v1004 := k0_pay48 v8 v9 v10 v578 v936 v948 v951
  have v1005 := k0_pay49 v8
  have v1055 := k0_pay50 v8 v9 v10 v578 v1004 v1005
  have v1059 := k0_pay51 v8
  have v1106 := k0_pay52 v8 v9 v10 v578 v1055 v1059
  have v1112 := k0_pay53 v8 v578
  k0_pay54 v9 v10 v1106 v1112

/-- The tile stored at the grid point with coordinates `i`. -/
def storedTile (i : grid0.Coords) (v0 v2 : Vec F S1x256x256 .f32) (v5 : Vec F S1x32 .f32) (v7 : Vec F S32 .f32) (v8 : Vec F S32x32 .f32)
    (v9 : Vec F S32 .f32) (v10 : Vec F S32x1 .f32) (v11 : Vec F S1 .f32) (v1125 v1129 : Vec F S1x1x256 .f32) : FVec F S1x256x256 .f32 :=
  k0_pay1 (scoreTile v0 v5 v7 v8 v9 v10 v11) (scoreTileT v2 v5 v7 v8 v9 v10 v11) (k0_pay55 v1125 v1129)
    (k0_pay56 (BitVec.ofNat 32 (i 1).val)) (iota .tc S256x256 32 [1] iota_S256x256_d1_w32) (k0_pay57 (BitVec.ofNat 32 (i 2).val))

end Cert.Kernel.Block

end
-- ==== Proof.K.Body.lean ====
/-
  The kernel's body at one grid point, run once at symbolic staging buffers: it loads the two similarity tiles, the
  two mask rows and the six weight arrays, loads the output buffer (the value is unused) and stores one tile, which
  is `Block.storedTile` of what it loaded. Every buffer it only reads is handed back as it was.
-/
import proofs.«173317_j58007828300453_2_alg».proof.Proof.K.Entry
import proofs.«173317_j58007828300453_2_alg».proof.Proof.BlockK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl
theorem hz1 : (![0] : Fin 1 → Nat) = fun _ => 0 := by funext a; fin_cases a <;> rfl

abbrev r3 : Rect S1x256x256 := Rect.unit (s := S1x256x256) ![0, 0, 0] S1x256x256.size inb_S1x256x256_S1x256x256_0_0_0
abbrev rm : Rect S1x1x256 := Rect.unit (s := S1x1x256) ![0, 0, 0] S1x1x256.size inb_S1x1x256_S1x1x256_0_0_0
abbrev rw1 : Rect S1x32 := Rect.unit (s := S1x32) ![0, 0] S1x32.size inb_S1x32_S1x32_0_0
abbrev rb : Rect S32 := Rect.unit (s := S32) ![0] S32.size inb_S32_S32_0
abbrev rw2 : Rect S32x32 := Rect.unit (s := S32x32) ![0, 0] S32x32.size inb_S32x32_S32x32_0_0
abbrev rw3 : Rect S32x1 := Rect.unit (s := S32x1) ![0, 0] S32x1.size inb_S32x1_S32x1_0_0
abbrev rb3 : Rect S1 := Rect.unit (s := S1) ![0] S1.size inb_S1_S1_0

/-- What the one store leaves in the output buffer, as the run finds it: the stored tile of what the ten loads read
    through their whole-buffer rectangles. -/
def outLd (i : grid0.Coords) (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) : Vec F S1x256x256 .f32 :=
  View.canon [⟨r3, Block.storedTile i (View.ld x0 r3) (View.ld x1 r3) (View.ld x4 rw1) (View.ld x5 rb) (View.ld x6 rw2) (View.ld x7 rb)
    (View.ld x8 rw3) (View.ld x9 rb3) (View.ld x2 rm) (View.ld x3 rm)⟩]

/-- A load through the whole-buffer rectangle reads the buffer and a store through it leaves its payload. -/
theorem outLd_eq (i : grid0.Coords) (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) :
    outLd i x0 x1 x2 x3 x4 x5 x6 x7 x8 x9 = Block.storedTile i x0 x1 x4 x5 x6 x7 x8 x9 x2 x3 := by
  unfold outLd
  rw [View.canon_unit_zero hz3]
  simp only [View.ld_unit_zero (S := S1x256x256) hz3, View.ld_unit_zero (S := S1x1x256) hz3, View.ld_unit_zero (S := S1x32) hz2,
    View.ld_unit_zero (S := S32) hz1, View.ld_unit_zero (S := S32x32) hz2, View.ld_unit_zero (S := S32x1) hz2, View.ld_unit_zero (S := S1) hz1]

set_option maxHeartbeats 4000000 in
/-- The body on whole staging buffers, the ten inputs' at contents `x0 … x9` and the output's at anything, runs to its
    return holding the inputs' as they were and the output's at the stored tile. -/
theorem sound_kernel (c : Dev nD) (E : Set ℕ) (i : grid0.Coords)
    (a3 : Memref sig .tc .vmem S1x256x256 .f32) (ha3 : a3.IsWhole) (a4 : Memref sig .tc .vmem S1x256x256 .f32) (ha4 : a4.IsWhole) (a5 : Memref sig .tc .vmem S1x1x256 .f32) (ha5 : a5.IsWhole) (a6 : Memref sig .tc .vmem S1x1x256 .f32) (ha6 : a6.IsWhole) (a7 : Memref sig .tc .vmem S1x32 .f32) (ha7 : a7.IsWhole) (a8 : Memref sig .tc .vmem S32 .f32) (ha8 : a8.IsWhole) (a9 : Memref sig .tc .vmem S32x32 .f32) (ha9 : a9.IsWhole) (a10 : Memref sig .tc .vmem S32 .f32) (ha10 : a10.IsWhole) (a11 : Memref sig .tc .vmem S32x1 .f32) (ha11 : a11.IsWhole) (a12 : Memref sig .tc .vmem S1 .f32) (ha12 : a12.IsWhole) (a13 : Memref sig .tc .vmem S1x256x256 .f32) (ha13 : a13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9 ∗ (∃ d, owns (c : Thread nD τ) a13 fullShare d)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9
            ∗ owns (c : Thread nD τ) a13 fullShare (Block.storedTile i x0 x1 x4 x5 x6 x7 x8 x9 x2 x3)) -∗ K ⟨⟩))
      ⊢ wp frame (wpE (defs₀ (F := F)) Variants.none c none) E (cc0__kernel i a3 ha3 a4 ha4 a5 ha5 a6 ha6 a7 ha7 a8 ha8 a9 ha9 a10 ha10 a11 ha11 a12 ha12 a13 ha13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  rw [← outLd_eq]
  exact View.read_writes_eq_canon _ _ _ (fun y => ⟨_, List.mem_singleton_self _, View.mem_set_unit_zero hz3 inb_S1x256x256_S1x256x256_0_0_0 y⟩)

end Cert.Kernel.Hand

end
-- ==== Proof.K.Data.lean ====
/-
  The pipeline's proof data. After the body at grid point t every input window's staging buffer still holds the
  window's block at t, and the output window's holds the stored tile of the ten input blocks. The similarity array
  is handed to windows 0 and 1, and the float mask to windows 2 and 3: each of those arrays is held in two halves of
  the full share, one per window; the other arrays are held whole.
-/
import proofs.«173317_j58007828300453_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile grid point `t` stores, from the input windows' blocks there. -/
def outTile (c : Dev nD) (t : Fin cfg0.N) : Vec F S1x256x256 .f32 :=
  Block.storedTile (grid0.coords t) (iblk m c 0 t) (iblk m c 1 t) (iblk m c 4 t) (iblk m c 5 t) (iblk m c 6 t) (iblk m c 7 t)
    (iblk m c 8 t) (iblk m c 9 t) (iblk m c 2 t) (iblk m c 3 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outTile m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outTile m c t := by dsimp only [dats]

/-- Input window 0's staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1's staging buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2's staging buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3's staging buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- Input window 4's staging buffer holds its block at every point, fetched there or not. -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
/-- Input window 5's staging buffer holds its block at every point, fetched there or not. -/
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
/-- Input window 6's staging buffer holds its block at every point, fetched there or not. -/
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
/-- Input window 7's staging buffer holds its block at every point, fetched there or not. -/
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
/-- Input window 8's staging buffer holds its block at every point, fetched there or not. -/
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
/-- Input window 9's staging buffer holds its block at every point, fetched there or not. -/
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: every input buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The run. Two windows read the similarity array and two read the float mask, so the launch splits each of those
  two arrays' full share in halves, one per window; nothing is written through an input window, so at the end every
  window reads its array back. Every weakly fair execution of the program terminates without a fault; the output
  array ends at what the write-backs of the 128 grid points leave, every other unscoped buffer as the region found it.
-/
import proofs.«173317_j58007828300453_2_alg».proof.Proof.K.Data
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windowed arrays as points-tos of the buffers behind them, each at its window's share. -/
theorem arrays_eq (c : Dev nD) (G : (w : Fin cfg0.W) → Buf (Elt F) ((cfg0.win w).arr.view.loc (c : Thread nD τ))) :
    ((dats m 0 c).arrays G : sProp 𝕄)
      = bigSep Finset.univ fun w : Fin 11 => (((c : Thread nD τ).loc (Pipeline.arrRef spec0 w)) ↦{(dats m 0 c).share w} G w : sProp 𝕄) := by
  unfold Dat.arrays
  exact bigSep_congr fun w _ => by rw [(arr_whole0 w).set_eq_univ]

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v1) ↦{fullShare} W main_v1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_arg5) ↦{fullShare} W main_arg5)
          ∗ (((c : Thread nD τ).loc main_arg6) ↦{fullShare} W main_arg6) ∗ (((c : Thread nD τ).loc main_arg7) ↦{fullShare} W main_arg7)
          ∗ (((c : Thread nD τ).loc main_v2) ↦{fullShare} W main_v2)) := by
  unfold Pipeline.arrBufs
  exact bigSep_eq_bigSepL_of_eq [main_arg0, main_v1, main_arg2, main_arg3, main_arg4, main_arg5, main_arg6, main_arg7, main_v2] (by decide) (by decide) _

/-- The nine distinct buffers behind the eleven windows, each whole at the full share, make the pipeline's arrays at
    entry: the similarity array's and the float mask's full shares are split in halves between their two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  rw [arrBufs_eq]
  iintro ⟨H0, H1, H2, H3, H4, H5, H6, H7, H8⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  isplitl [H7]; · iexact H7
  iexact H8

-- the launch theorem's implicit arguments are found by unifying its conclusion with this one, which takes unfolding plain
-- definitions in a metavariable's type
set_option backward.isDefEq.respectTransparency.types false in
/-- At the compiled mesh, for any values, from any memory with zero counters: every weakly fair execution of the program
    on the TensorCores terminates, and every final state has every windowed array at what the library computes from the
    proof data and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last (cfgs 0).N) = Pipeline.scopedRest (Ix := Unit) (Name := ℕ) (U := UR sig nD τ) (Lvl := ℕ) (Val := Elt F) spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Kernel.Hand.run_main' depends on axioms: [propext, Classical.choice, Quot.sound] -/
#guard_msgs in #print axioms run_main

/-- THE FRAME: the argument arrays end unchanged. Arguments 0 and 2 to 7 are read through input windows, which the
    pipeline never writes; argument 1 is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).1 5).trans (((dats m 0 c).arrAt_in 5 rfl _).trans ((A_eq m c 5).trans (V_main_arg3 m c))),
     ((h c).1 6).trans (((dats m 0 c).arrAt_in 6 rfl _).trans ((A_eq m c 6).trans (V_main_arg4 m c))),
     ((h c).1 7).trans (((dats m 0 c).arrAt_in 7 rfl _).trans ((A_eq m c 7).trans (V_main_arg5 m c))),
     ((h c).1 8).trans (((dats m 0 c).arrAt_in 8 rfl _).trans ((A_eq m c 8).trans (V_main_arg6 m c))),
     ((h c).1 9).trans (((dats m 0 c).arrAt_in 9 rfl _).trans ((A_eq m c 9).trans (V_main_arg7 m c)))⟩) (run_main m ρ)

end Cert.Kernel.Hand

end
-- ==== Proof.KI.Entry.lean ====
/-
  The program up to its one region. Two host operations run first: the node mask is converted from bits to floats
  (0 or 1) and reshaped to [8,1,1024]; then the region is entered. `V` names what every buffer holds at that moment;
  no host operation writes an argument array, so each is found as launched.
-/
import proofs.«173317_j58007828300453_2_alg».proof.Proof.Gen.KernelIdeal.Launch
import proofs.«173317_j58007828300453_2_alg».proof.Proof.Gen.KernelIdeal.Skeleton
import proofs.«173317_j58007828300453_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the two host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.Block.lean ====
/-
  The value one grid point stores, as one function of the vectors its loads return.

  The kernel's body loads the tile x of the similarity array at block (b, i, j), the tile y at block (b, j, i), the
  two mask rows and the six weight arrays, and stores one tile. The generated payload definitions cut that
  computation into pieces; here the pieces are composed in the body's order:
  `scoreTile` is the logistic of the perceptron applied to every entry of x, `scoreTileT` the same for the
  transpose of y, and `storedTile` is one half of their sum times the outer product of the two mask rows times the
  indicator that the global row and column numbers differ.
-/
import proofs.«173317_j58007828300453_2_alg».proof.Proof.Gen.KernelIdeal.Skeleton

noncomputable section

namespace Cert.KernelIdeal.Block

open Idealize.ShloMosaic Cert.KernelIdeal Cert.KernelIdeal.Gen

variable {F : FTy → Type} [FloatOps F]

/-- The score of every entry of the tile `v0` (weights `v5 v7 v8 v9 v10 v11` = w1 b1 w2 b2 w3 b3). -/
def scoreTile (v0 : Vec F S1x256x256 .f32) (v5 : Vec F S1x32 .f32) (v7 : Vec F S32 .f32) (v8 : Vec F S32x32 .f32) (v9 : Vec F S32 .f32) (v10 : Vec F S32x1 .f32) (v11 : Vec F S1 .f32) : FVec F S256x256 .f32 :=
  have v12 := k0_pay4 v11
  have v22 := k0_pay5 v0 v5 v7
  have v23 := k0_pay6 v11
  have v35 := k0_pay7 v0 v5 v7 v8 v9
  have v38 := k0_pay8 v10
  have v91 := k0_pay9 v8 v9 v10 v22 v23 v35 v38
  have v92 := k0_pay10 v8
  have v142 := k0_pay11 v8 v9 v10 v22 v91 v92
  have v146 := k0_pay12 v8
  have v193 := k0_pay13 v8 v9 v10 v22 v142 v146
  have v199 := k0_pay14 v8 v22
  have v244 := k0_pay15 v8 v9 v10 v22 v193 v199
  have v250 := k0_pay16 v8 v22
  have v253 := k0_pay17 v9
  have v295 := k0_pay18 v8 v9 v10 v22 v244 v250 v253
  have v305 := k0_pay19 v8 v9 v22
  have v306 := k0_pay20 (F := F)
  have v346 := k0_pay21 v8 v9 v10 v22 v295 v305 v306
  have v358 := k0_pay22 v8 v9 v22
  have v360 := k0_pay23 v10
  have v414 := k0_pay24 v8 v9 v10 v22 v346 v358 v360
  have v465 := k0_pay25 v8 v9 v10 v22 v414
  have v468 := k0_pay26 v8
  have v516 := k0_pay27 v8 v9 v10 v22 v465 v468
  have v521 := k0_pay28 v8 v22
  k0_pay29 v8 v9 v10 v22 v516 v521

/-- The score of every entry of the transpose of the tile `v2`. -/
def scoreTileT (v2 : Vec F S1x256x256 .f32) (v5 : Vec F S1x32 .f32) (v7 : Vec F S32 .f32) (v8 : Vec F S32x32 .f32) (v9 : Vec F S32 .f32) (v10 : Vec F S32x1 .f32) (v11 : Vec F S1 .f32) : FVec F S256x256 .f32 :=
  have v4 := k0_pay2 v2
  have v6 := k0_pay3 v5
  have v12 := k0_pay4 v11
  have v576 := k0_pay30 v4 v6 v7
  have v578 := k0_pay31 v576
  have v613 := k0_pay32 v8 v9 v10 v12 v576
  have v629 := k0_pay33 v8 v9 v10 v576
  have v681 := k0_pay34 v8 v9 v10 v578 v613 v629
  have v683 := k0_pay35 v8
  have v732 := k0_pay36 v8 v9 v10 v578 v681 v683
  have v737 := k0_pay37 v8 v578
  have v783 := k0_pay38 v8 v9 v10 v578 v732 v737
  have v789 := k0_pay39 v8 v578
  have v790 := k0_pay40 v9
  have v834 := k0_pay41 v8 v9 v10 v578 v783 v789 v790
  have v844 := k0_pay42 v8 v9 v578
  have v885 := k0_pay43 v8 v9 v10 v578 v834 v844
  have v897 := k0_pay44 v8 v9 v578
  have v936 := k0_pay45 v8 v9 v10 v578 v885 v897
  have v948 := k0_pay46 v8 v9 v578
  have v951 := k0_pay47 v10
  have v1004 := k0_pay48 v8 v9 v10 v578 v936 v948 v951
  have v1005 := k0_pay49 v8
  have v1055 := k0_pay50 v8 v9 v10 v578 v1004 v1005
  have v1059 := k0_pay51 v8
  have v1106 := k0_pay52 v8 v9 v10 v578 v1055 v1059
  have v1112 := k0_pay53 v8 v578
  k0_pay54 v9 v10 v1106 v1112

/-- The tile stored at the grid point with coordinates `i`. -/
def storedTile (i : grid0.Coords) (v0 v2 : Vec F S1x256x256 .f32) (v5 : Vec F S1x32 .f32) (v7 : Vec F S32 .f32) (v8 : Vec F S32x32 .f32)
    (v9 : Vec F S32 .f32) (v10 : Vec F S32x1 .f32) (v11 : Vec F S1 .f32) (v1125 v1129 : Vec F S1x1x256 .f32) : FVec F S1x256x256 .f32 :=
  k0_pay1 (scoreTile v0 v5 v7 v8 v9 v10 v11) (scoreTileT v2 v5 v7 v8 v9 v10 v11) (k0_pay55 v1125 v1129)
    (k0_pay56 (BitVec.ofNat 32 (i 1).val)) (iota .tc S256x256 32 [1] iota_S256x256_d1_w32) (k0_pay57 (BitVec.ofNat 32 (i 2).val))

end Cert.KernelIdeal.Block

end
-- ==== Proof.KI.Body.lean ====
/-
  The kernel's body at one grid point, run once at symbolic staging buffers: it loads the two similarity tiles, the
  two mask rows and the six weight arrays, loads the output buffer (the value is unused) and stores one tile, which
  is `Block.storedTile` of what it loaded. Every buffer it only reads is handed back as it was.
-/
import proofs.«173317_j58007828300453_2_alg».proof.Proof.KI.Entry
import proofs.«173317_j58007828300453_2_alg».proof.Proof.Block
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl
theorem hz1 : (![0] : Fin 1 → Nat) = fun _ => 0 := by funext a; fin_cases a <;> rfl

abbrev r3 : Rect S1x256x256 := Rect.unit (s := S1x256x256) ![0, 0, 0] S1x256x256.size inb_S1x256x256_S1x256x256_0_0_0
abbrev rm : Rect S1x1x256 := Rect.unit (s := S1x1x256) ![0, 0, 0] S1x1x256.size inb_S1x1x256_S1x1x256_0_0_0
abbrev rw1 : Rect S1x32 := Rect.unit (s := S1x32) ![0, 0] S1x32.size inb_S1x32_S1x32_0_0
abbrev rb : Rect S32 := Rect.unit (s := S32) ![0] S32.size inb_S32_S32_0
abbrev rw2 : Rect S32x32 := Rect.unit (s := S32x32) ![0, 0] S32x32.size inb_S32x32_S32x32_0_0
abbrev rw3 : Rect S32x1 := Rect.unit (s := S32x1) ![0, 0] S32x1.size inb_S32x1_S32x1_0_0
abbrev rb3 : Rect S1 := Rect.unit (s := S1) ![0] S1.size inb_S1_S1_0

/-- What the one store leaves in the output buffer, as the run finds it: the stored tile of what the ten loads read
    through their whole-buffer rectangles. -/
def outLd (i : grid0.Coords) (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) : Vec F S1x256x256 .f32 :=
  View.canon [⟨r3, Block.storedTile i (View.ld x0 r3) (View.ld x1 r3) (View.ld x4 rw1) (View.ld x5 rb) (View.ld x6 rw2) (View.ld x7 rb)
    (View.ld x8 rw3) (View.ld x9 rb3) (View.ld x2 rm) (View.ld x3 rm)⟩]

/-- A load through the whole-buffer rectangle reads the buffer and a store through it leaves its payload. -/
theorem outLd_eq (i : grid0.Coords) (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) :
    outLd i x0 x1 x2 x3 x4 x5 x6 x7 x8 x9 = Block.storedTile i x0 x1 x4 x5 x6 x7 x8 x9 x2 x3 := by
  unfold outLd
  rw [View.canon_unit_zero hz3]
  simp only [View.ld_unit_zero (S := S1x256x256) hz3, View.ld_unit_zero (S := S1x1x256) hz3, View.ld_unit_zero (S := S1x32) hz2,
    View.ld_unit_zero (S := S32) hz1, View.ld_unit_zero (S := S32x32) hz2, View.ld_unit_zero (S := S32x1) hz2, View.ld_unit_zero (S := S1) hz1]

set_option maxHeartbeats 4000000 in
/-- The body on whole staging buffers, the ten inputs' at contents `x0 … x9` and the output's at anything, runs to its
    return holding the inputs' as they were and the output's at the stored tile. -/
theorem sound_kernel (c : Dev nD) (E : Set ℕ) (i : grid0.Coords)
    (a3 : Memref sig .tc .vmem S1x256x256 .f32) (ha3 : a3.IsWhole) (a4 : Memref sig .tc .vmem S1x256x256 .f32) (ha4 : a4.IsWhole) (a5 : Memref sig .tc .vmem S1x1x256 .f32) (ha5 : a5.IsWhole) (a6 : Memref sig .tc .vmem S1x1x256 .f32) (ha6 : a6.IsWhole) (a7 : Memref sig .tc .vmem S1x32 .f32) (ha7 : a7.IsWhole) (a8 : Memref sig .tc .vmem S32 .f32) (ha8 : a8.IsWhole) (a9 : Memref sig .tc .vmem S32x32 .f32) (ha9 : a9.IsWhole) (a10 : Memref sig .tc .vmem S32 .f32) (ha10 : a10.IsWhole) (a11 : Memref sig .tc .vmem S32x1 .f32) (ha11 : a11.IsWhole) (a12 : Memref sig .tc .vmem S1 .f32) (ha12 : a12.IsWhole) (a13 : Memref sig .tc .vmem S1x256x256 .f32) (ha13 : a13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9 ∗ (∃ d, owns (c : Thread nD τ) a13 fullShare d)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9
            ∗ owns (c : Thread nD τ) a13 fullShare (Block.storedTile i x0 x1 x4 x5 x6 x7 x8 x9 x2 x3)) -∗ K ⟨⟩))
      ⊢ wp frame (wpE (defs₀ (F := F)) Variants.none c none) E (cc0__kernel i a3 ha3 a4 ha4 a5 ha5 a6 ha6 a7 ha7 a8 ha8 a9 ha9 a10 ha10 a11 ha11 a12 ha12 a13 ha13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  rw [← outLd_eq]
  exact View.read_writes_eq_canon _ _ _ (fun y => ⟨_, List.mem_singleton_self _, View.mem_set_unit_zero hz3 inb_S1x256x256_S1x256x256_0_0_0 y⟩)

end Cert.KernelIdeal.Hand

end
-- ==== Proof.KI.Data.lean ====
/-
  The pipeline's proof data. After the body at grid point t every input window's staging buffer still holds the
  window's block at t, and the output window's holds the stored tile of the ten input blocks. The similarity array
  is handed to windows 0 and 1, and the float mask to windows 2 and 3: each of those arrays is held in two halves of
  the full share, one per window; the other arrays are held whole.
-/
import proofs.«173317_j58007828300453_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile grid point `t` stores, from the input windows' blocks there. -/
def outTile (c : Dev nD) (t : Fin cfg0.N) : Vec F S1x256x256 .f32 :=
  Block.storedTile (grid0.coords t) (iblk m c 0 t) (iblk m c 1 t) (iblk m c 4 t) (iblk m c 5 t) (iblk m c 6 t) (iblk m c 7 t)
    (iblk m c 8 t) (iblk m c 9 t) (iblk m c 2 t) (iblk m c 3 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outTile m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outTile m c t := by dsimp only [dats]

/-- Input window 0's staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1's staging buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2's staging buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3's staging buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- Input window 4's staging buffer holds its block at every point, fetched there or not. -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
/-- Input window 5's staging buffer holds its block at every point, fetched there or not. -/
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
/-- Input window 6's staging buffer holds its block at every point, fetched there or not. -/
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
/-- Input window 7's staging buffer holds its block at every point, fetched there or not. -/
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
/-- Input window 8's staging buffer holds its block at every point, fetched there or not. -/
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
/-- Input window 9's staging buffer holds its block at every point, fetched there or not. -/
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: every input buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The run. Two windows read the similarity array and two read the float mask, so the launch splits each of those
  two arrays' full share in halves, one per window; nothing is written through an input window, so at the end every
  window reads its array back. Every weakly fair execution of the program terminates without a fault; the output
  array ends at what the write-backs of the 128 grid points leave, every other unscoped buffer as the region found it.
-/
import proofs.«173317_j58007828300453_2_alg».proof.Proof.KI.Data
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windowed arrays as points-tos of the buffers behind them, each at its window's share. -/
theorem arrays_eq (c : Dev nD) (G : (w : Fin cfg0.W) → Buf (Elt F) ((cfg0.win w).arr.view.loc (c : Thread nD τ))) :
    ((dats m 0 c).arrays G : sProp 𝕄)
      = bigSep Finset.univ fun w : Fin 11 => (((c : Thread nD τ).loc (Pipeline.arrRef spec0 w)) ↦{(dats m 0 c).share w} G w : sProp 𝕄) := by
  unfold Dat.arrays
  exact bigSep_congr fun w _ => by rw [(arr_whole0 w).set_eq_univ]

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v1) ↦{fullShare} W main_v1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_arg5) ↦{fullShare} W main_arg5)
          ∗ (((c : Thread nD τ).loc main_arg6) ↦{fullShare} W main_arg6) ∗ (((c : Thread nD τ).loc main_arg7) ↦{fullShare} W main_arg7)
          ∗ (((c : Thread nD τ).loc main_v2) ↦{fullShare} W main_v2)) := by
  unfold Pipeline.arrBufs
  exact bigSep_eq_bigSepL_of_eq [main_arg0, main_v1, main_arg2, main_arg3, main_arg4, main_arg5, main_arg6, main_arg7, main_v2] (by decide) (by decide) _

/-- The nine distinct buffers behind the eleven windows, each whole at the full share, make the pipeline's arrays at
    entry: the similarity array's and the float mask's full shares are split in halves between their two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  rw [arrBufs_eq]
  iintro ⟨H0, H1, H2, H3, H4, H5, H6, H7, H8⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  isplitl [H7]; · iexact H7
  iexact H8

-- the launch theorem's implicit arguments are found by unifying its conclusion with this one, which takes unfolding plain
-- definitions in a metavariable's type
set_option backward.isDefEq.respectTransparency.types false in
/-- At the compiled mesh, for any values, from any memory with zero counters: every weakly fair execution of the program
    on the TensorCores terminates, and every final state has every windowed array at what the library computes from the
    proof data and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last (cfgs 0).N) = Pipeline.scopedRest (Ix := Unit) (Name := ℕ) (U := UR sig nD τ) (Lvl := ℕ) (Val := Elt F) spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.KernelIdeal.Hand.run_main' depends on axioms: [propext, Classical.choice, Quot.sound] -/
#guard_msgs in #print axioms run_main

/-- THE FRAME: the argument arrays end unchanged. Arguments 0 and 2 to 7 are read through input windows, which the
    pipeline never writes; argument 1 is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).1 5).trans (((dats m 0 c).arrAt_in 5 rfl _).trans ((A_eq m c 5).trans (V_main_arg3 m c))),
     ((h c).1 6).trans (((dats m 0 c).arrAt_in 6 rfl _).trans ((A_eq m c 6).trans (V_main_arg4 m c))),
     ((h c).1 7).trans (((dats m 0 c).arrAt_in 7 rfl _).trans ((A_eq m c 7).trans (V_main_arg5 m c))),
     ((h c).1 8).trans (((dats m 0 c).arrAt_in 8 rfl _).trans ((A_eq m c 8).trans (V_main_arg6 m c))),
     ((h c).1 9).trans (((dats m 0 c).arrAt_in 9 rfl _).trans ((A_eq m c 9).trans (V_main_arg7 m c)))⟩) (run_main m ρ)

end Cert.KernelIdeal.Hand

end
-- ==== Proof.Spec.lean ====
/-
  The function both programs compute, written once over the argument arrays as extended reals.

  For a batch b and nodes i, j the score of the pair is the logistic of a three-layer perceptron applied to the
  single similarity x = sim[b,i,j]:
    hid1 x h = max (x * w1[0,h] + b1[h]) 0                       (32 hidden units)
    hid2 x k = max ((sum over h of hid1 x h * w2[h,k]) + b2[k]) 0    (32 hidden units)
    score x  = logistic ((sum over k of hid2 x k * w3[k,0]) + b3[0]).
  The result at (b,i,j) is one half of score sim[b,i,j] + score sim[b,j,i] when i and j are different nodes that are
  both valid in batch b, and zero otherwise.
-/
import Idealize.ShloMosaic.PureOps.Ideal
import Idealize.ShloMosaic.Lib.ValueIdx

noncomputable section

open scoped BigOperators

namespace Cert.PairScore

open Idealize.ShloMosaic Idealize.ShloMosaic.ValueIdx

/-- First hidden layer at one similarity value. -/
def hid1 (w1 : (⟨2, ![1, 32]⟩ : Shape).Idx → EReal) (b1 : (⟨1, ![32]⟩ : Shape).Idx → EReal) (x : EReal) (h : Fin 32) : EReal :=
  max (x * w1 (ix2 (0 : Fin 1) h) + b1 (ix1 h)) 0

/-- Second hidden layer at one similarity value. -/
def hid2 (w1 : (⟨2, ![1, 32]⟩ : Shape).Idx → EReal) (b1 : (⟨1, ![32]⟩ : Shape).Idx → EReal)
    (w2 : (⟨2, ![32, 32]⟩ : Shape).Idx → EReal) (b2 : (⟨1, ![32]⟩ : Shape).Idx → EReal) (x : EReal) (k : Fin 32) : EReal :=
  max ((∑ h : Fin 32, hid1 w1 b1 x h * w2 (ix2 h k)) + b2 (ix1 k)) 0

/-- The score of one similarity value: the logistic of the perceptron's output. -/
def score (w1 : (⟨2, ![1, 32]⟩ : Shape).Idx → EReal) (b1 : (⟨1, ![32]⟩ : Shape).Idx → EReal)
    (w2 : (⟨2, ![32, 32]⟩ : Shape).Idx → EReal) (b2 : (⟨1, ![32]⟩ : Shape).Idx → EReal)
    (w3 : (⟨2, ![32, 1]⟩ : Shape).Idx → EReal) (b3 : (⟨1, ![1]⟩ : Shape).Idx → EReal) (x : EReal) : EReal :=
  Ideal.logistic ((∑ k : Fin 32, hid2 w1 b1 w2 b2 x k * w3 (ix2 k (0 : Fin 1))) + b3 (ix1 (0 : Fin 1)))

/-- The symmetrized, masked score with the diagonal removed, at batch `b` and nodes `i`, `j`. -/
def pairAt (sim : (⟨3, ![8, 1024, 1024]⟩ : Shape).Idx → EReal) (mask : (⟨2, ![8, 1024]⟩ : Shape).Idx → BitVec 1)
    (w1 : (⟨2, ![1, 32]⟩ : Shape).Idx → EReal) (b1 : (⟨1, ![32]⟩ : Shape).Idx → EReal)
    (w2 : (⟨2, ![32, 32]⟩ : Shape).Idx → EReal) (b2 : (⟨1, ![32]⟩ : Shape).Idx → EReal)
    (w3 : (⟨2, ![32, 1]⟩ : Shape).Idx → EReal) (b3 : (⟨1, ![1]⟩ : Shape).Idx → EReal)
    (b : Fin 8) (i j : Fin 1024) : EReal :=
  if i ≠ j ∧ mask (ix2 b i) = 1#1 ∧ mask (ix2 b j) = 1#1 then
    Ideal.ofBits .f32 0x3F000000#32
      * (score w1 b1 w2 b2 w3 b3 (sim (ix3 b i j)) + score w1 b1 w2 b2 w3 b3 (sim (ix3 b j i)))
  else 0

/-- The whole result array. -/
def result (sim : (⟨3, ![8, 1024, 1024]⟩ : Shape).Idx → EReal) (mask : (⟨2, ![8, 1024]⟩ : Shape).Idx → BitVec 1)
    (w1 : (⟨2, ![1, 32]⟩ : Shape).Idx → EReal) (b1 : (⟨1, ![32]⟩ : Shape).Idx → EReal)
    (w2 : (⟨2, ![32, 32]⟩ : Shape).Idx → EReal) (b2 : (⟨1, ![32]⟩ : Shape).Idx → EReal)
    (w3 : (⟨2, ![32, 1]⟩ : Shape).Idx → EReal) (b3 : (⟨1, ![1]⟩ : Shape).Idx → EReal) :
    (⟨3, ![8, 1024, 1024]⟩ : Shape).Idx → EReal :=
  fun idx => pairAt sim mask w1 b1 w2 b2 w3 b3 (idx 0) (idx 1) (idx 2)

end Cert.PairScore

end
-- ==== Proof.OutForm.lean ====
/-
  The result array written with the node mask as FLOATS (1 for a valid node, 0 otherwise), the way the kernel uses
  it: at batch b, row I and column J it is one half of score sim[b,I,J] + score sim[b,J,I], times maskf[b,I] * maskf[b,J],
  times the indicator that I and J differ. With maskf the conversion of the bit mask this is `Cert.PairScore.result`.
-/
import proofs.«173317_j58007828300453_2_alg».proof.Proof.Spec

noncomputable section

namespace Cert.PairScore

open Idealize.ShloMosaic Idealize.ShloMosaic.ValueIdx

/-- The result at batch `b`, row `I`, column `J`, from the similarity array, the float mask (shape [8,1,1024]) and the weights. -/
def outAt (sim : (⟨3, ![8, 1024, 1024]⟩ : Shape).Idx → EReal) (mf : (⟨3, ![8, 1, 1024]⟩ : Shape).Idx → EReal)
    (w1 : (⟨2, ![1, 32]⟩ : Shape).Idx → EReal) (b1 : (⟨1, ![32]⟩ : Shape).Idx → EReal)
    (w2 : (⟨2, ![32, 32]⟩ : Shape).Idx → EReal) (b2 : (⟨1, ![32]⟩ : Shape).Idx → EReal)
    (w3 : (⟨2, ![32, 1]⟩ : Shape).Idx → EReal) (b3 : (⟨1, ![1]⟩ : Shape).Idx → EReal)
    (b : Fin 8) (I J : Fin 1024) : EReal :=
  ((Ideal.ofBits .f32 0x3F000000#32 * (score w1 b1 w2 b2 w3 b3 (sim (ix3 b I J)) + score w1 b1 w2 b2 w3 b3 (sim (ix3 b J I))))
      * (mf (ix3 b (0 : Fin 1) I) * mf (ix3 b (0 : Fin 1) J)))
    * (if I.val ≠ J.val then (1 : EReal) else 0)

/-- The whole result array in that form. -/
def outArr (sim : (⟨3, ![8, 1024, 1024]⟩ : Shape).Idx → EReal) (mf : (⟨3, ![8, 1, 1024]⟩ : Shape).Idx → EReal)
    (w1 : (⟨2, ![1, 32]⟩ : Shape).Idx → EReal) (b1 : (⟨1, ![32]⟩ : Shape).Idx → EReal)
    (w2 : (⟨2, ![32, 32]⟩ : Shape).Idx → EReal) (b2 : (⟨1, ![32]⟩ : Shape).Idx → EReal)
    (w3 : (⟨2, ![32, 1]⟩ : Shape).Idx → EReal) (b3 : (⟨1, ![1]⟩ : Shape).Idx → EReal) :
    (⟨3, ![8, 1024, 1024]⟩ : Shape).Idx → EReal :=
  fun idx => outAt sim mf w1 b1 w2 b2 w3 b3 (idx 0) (idx 1) (idx 2)

end Cert.PairScore

end
-- ==== Proof.MaskGlue.lean ====
/-
  Two facts that join the float form of the result to the common function.

  First, pure algebra on the extended reals: if the float mask is one where the bit mask is set and zero where it is
  clear, then 1/2 * (score + score) * (maskf I * maskf J) * [I and J differ] is the common function: with both bits
  set and I different from J every factor but the first is one; on the diagonal the last factor is zero; with a bit
  clear the mask product is zero. Only x * 1 = x and x * 0 = 0 * x = 0 are used.

  Second, the float mask the region finds is that conversion: before the region the program converts the bit mask to
  floats (the bit read as an unsigned number, so 0 or 1) and views the [8,1024] array as [8,1,1024], which keeps the
  row-major position b * 1024 + I.
-/
import proofs.«173317_j58007828300453_2_alg».proof.Proof.OutForm
import proofs.«173317_j58007828300453_2_alg».proof.Proof.KI.Entry
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.MaskGlue

open Idealize.ShloMosaic Idealize.ShloMosaic.ValueIdx Idealize.ShloMosaic.TcCoe Idealize.SL.Sem Idealize.ShloMosaic.StableHlo
open Cert.KernelIdeal Cert.KernelIdeal.Gen Cert.KernelIdeal.Hand Cert.PairScore

/-- With the float mask the conversion of the bit mask (one for a set bit, zero for a clear one), the result written
    over the float mask is the common function. -/
theorem outArr_eq_result (sim : S8x1024x1024.Idx → EReal) (mask : S8x1024.Idx → BitVec 1) (mf : S8x1x1024.Idx → EReal)
    (w1 : S1x32.Idx → EReal) (b1 : S32.Idx → EReal) (w2 : S32x32.Idx → EReal) (b2 : S32.Idx → EReal)
    (w3 : S32x1.Idx → EReal) (b3 : S1.Idx → EReal)
    (hmf : ∀ (b : Fin 8) (I : Fin 1024), mf (ix3 b (0 : Fin 1) I) = if mask (ix2 b I) = 1#1 then (1 : EReal) else 0) :
    Cert.PairScore.outArr sim mf w1 b1 w2 b2 w3 b3 = Cert.PairScore.result sim mask w1 b1 w2 b2 w3 b3 := by
  funext idx
  obtain ⟨b, I, J, rfl⟩ : ∃ (b : Fin 8) (I J : Fin 1024), idx = ix3 b I J := ⟨idx 0, idx 1, idx 2, eq_ix3 idx⟩
  show outAt sim mf w1 b1 w2 b2 w3 b3 b I J = pairAt sim mask w1 b1 w2 b2 w3 b3 b I J
  unfold outAt pairAt
  rw [hmf b I, hmf b J]
  by_cases hIJ : I = J
  · have hc : ¬(I ≠ J ∧ mask (ix2 b I) = 1#1 ∧ mask (ix2 b J) = 1#1) := fun h => h.1 hIJ
    have hv : ¬(I.val ≠ J.val) := fun h => h (congrArg Fin.val hIJ)
    rw [if_neg hc, if_neg hv, mul_zero]
  · have hv : I.val ≠ J.val := fun h => hIJ (Fin.ext h)
    rw [if_pos hv, mul_one]
    by_cases hI : mask (ix2 b I) = 1#1
    · by_cases hJ : mask (ix2 b J) = 1#1
      · have hc : I ≠ J ∧ mask (ix2 b I) = 1#1 ∧ mask (ix2 b J) = 1#1 := ⟨hIJ, hI, hJ⟩
        rw [if_pos hI, if_pos hJ, mul_one, mul_one, if_pos hc]
      · have hc : ¬(I ≠ J ∧ mask (ix2 b I) = 1#1 ∧ mask (ix2 b J) = 1#1) := fun h => hJ h.2.2
        rw [if_pos hI, if_neg hJ, mul_zero, mul_zero, if_neg hc]
    · have hc : ¬(I ≠ J ∧ mask (ix2 b I) = 1#1 ∧ mask (ix2 b J) = 1#1) := fun h => hI h.2.1
      rw [if_neg hI, zero_mul, mul_zero, if_neg hc]

/-! ## The float mask the region finds -/

section
variable (m : (ℓ : Loc nD τ sig) → Buf (Elt Ideal) ℓ) (c : Dev nD)

/-- When the region is entered the buffer of the float mask holds the bit mask converted to floats and viewed as
    [8,1,1024]: the two host operations wrote exactly that. -/
theorem V_mask_eq :
    (V m c main_v1 : S8x1x1024.Idx → EReal)
      = shapeCast S8x1x1024 (uitofp (F := Ideal) .f32 (m ((c : Thread nD τ).loc main_arg1) : S8x1024.Idx → BitVec 1)) shapeCasts_S8x1024_S8x1x1024 := by
  dsimp only [V, hostOps0]
  after_results
  rfl

/-- At batch `b` and node `I` the float mask is one where the bit is set and zero where it is clear. -/
theorem V_mask_at (b : Fin 8) (I : Fin 1024) :
    (V m c main_v1 : S8x1x1024.Idx → EReal) (ix3 b (0 : Fin 1) I)
      = if (m ((c : Thread nD τ).loc main_arg1) : S8x1024.Idx → BitVec 1) (ix2 b I) = 1#1 then (1 : EReal) else 0 := by
  refine (congrFun (V_mask_eq m c) (ix3 b (0 : Fin 1) I)).trans ?_
  refine (shapeCast_apply _ shapeCasts_S8x1024_S8x1x1024 (ix3 b (0 : Fin 1) I) (ix2 b I) ?_).trans ?_
  · rw [Shape.rowMajor_val_two, Shape.rowMajor_val_three]
    show b.val * 1024 + I.val = (b.val * 1 + 0) * 1024 + I.val
    omega
  show ((((m ((c : Thread nD τ).loc main_arg1) : S8x1024.Idx → BitVec 1) (ix2 b I)).toNat : ℝ) : EReal) = _
  rcases BitVec.eq_zero_or_eq_one ((m ((c : Thread nD τ).loc main_arg1) : S8x1024.Idx → BitVec 1) (ix2 b I)) with h | h
  · have h01 : ¬((0#1 : BitVec 1) = 1#1) := by decide
    rw [h, if_neg h01]
    show (((0 : ℕ) : ℝ) : EReal) = 0
    rw [Nat.cast_zero, EReal.coe_zero]
  · rw [h, if_pos rfl]
    show (((1 : ℕ) : ℝ) : EReal) = 1
    rw [Nat.cast_one, EReal.coe_one]

end

end Cert.KernelIdeal.MaskGlue

end
-- ==== Proof.KI.Value.lean ====
/-
  The output array after the run, as one function of the arrays the region finds.

  Grid point t = (b, i, j) stores the tile of rows i*256 … i*256+255 and columns j*256 … j*256+255 of batch b. Window 0
  hands it the same tile of the similarity array, window 1 the tile at (b, j, i), windows 2 and 3 the stretches of the
  float mask for the rows and for the columns, and windows 4 to 9 the whole weight arrays. So entry (p, q) of the stored
  tile is the closed form `outAt` at row I = i*256+p and column J = j*256+q: one half of score sim[b,I,J] + score sim[b,J,I],
  times maskf[b,I] * maskf[b,J], times the indicator of I ≠ J. The 128 tiles cover the array.
-/
import proofs.«173317_j58007828300453_2_alg».proof.Proof.KI.Run
import proofs.«173317_j58007828300453_2_alg».proof.Proof.OutForm
import proofs.«173317_j58007828300453_2_alg».proof.Proof.MaskGlue
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.PairScore
open Idealize.ShloMosaic Idealize.ShloMosaic.TcCoe Idealize.ShloMosaic.ValueIdx
open Idealize.SL Idealize.SL.Sem
open Idealize.ShloMosaic.Pipeline (Dat Cfg Window)

/-- The block lemma this module rests on: entry (p, q) of the stored tile from the loaded vectors. -/
def BlockFact : Prop :=
  ∀ (i : grid0.Coords) (v0 v2 : Vec Ideal S1x256x256 .f32) (v5 : Vec Ideal S1x32 .f32) (v7 : Vec Ideal S32 .f32) (v8 : Vec Ideal S32x32 .f32)
    (v9 : Vec Ideal S32 .f32) (v10 : Vec Ideal S32x1 .f32) (v11 : Vec Ideal S1 .f32) (v1125 v1129 : Vec Ideal S1x1x256 .f32) (p q : Fin 256),
    Block.storedTile (F := Ideal) i v0 v2 v5 v7 v8 v9 v10 v11 v1125 v1129 (ix3 (0 : Fin 1) p q)
      = ((Ideal.ofBits .f32 0x3F000000#32 * (score v5 v7 v8 v9 v10 v11 (v0 (ix3 (0 : Fin 1) p q)) + score v5 v7 v8 v9 v10 v11 (v2 (ix3 (0 : Fin 1) q p))))
          * (v1125 (ix3 (0 : Fin 1) (0 : Fin 1) p) * v1129 (ix3 (0 : Fin 1) (0 : Fin 1) q)))
        * (if (i 1).val * 256 + p.val ≠ (i 2).val * 256 + q.val then (1 : EReal) else 0)

variable (m : (ℓ : Loc nD τ sig) → Buf (Elt Ideal) ℓ) (ρ : Dev nD → PrngReg)

/-- The printed index maps, decided over the grid: window 0 moves with the output window, window 1 with its last two
    axes swapped, windows 2 and 3 follow the output's row and column blocks, the weights' windows stay at block 0, and
    the output's block indices are the grid coordinates. -/
theorem idx_facts : ∀ t : Fin cfg0.N,
    win0_0.index t (0 : Fin 3) = win0_10.index t (0 : Fin 3) ∧ win0_0.index t (1 : Fin 3) = win0_10.index t (1 : Fin 3) ∧ win0_0.index t (2 : Fin 3) = win0_10.index t (2 : Fin 3)
    ∧ win0_1.index t (0 : Fin 3) = win0_10.index t (0 : Fin 3) ∧ win0_1.index t (1 : Fin 3) = win0_10.index t (2 : Fin 3) ∧ win0_1.index t (2 : Fin 3) = win0_10.index t (1 : Fin 3)
    ∧ win0_2.index t (0 : Fin 3) = win0_10.index t (0 : Fin 3) ∧ win0_2.index t (1 : Fin 3) = 0 ∧ win0_2.index t (2 : Fin 3) = win0_10.index t (1 : Fin 3)
    ∧ win0_3.index t (0 : Fin 3) = win0_10.index t (0 : Fin 3) ∧ win0_3.index t (1 : Fin 3) = 0 ∧ win0_3.index t (2 : Fin 3) = win0_10.index t (2 : Fin 3)
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ (grid0.coords t (1 : Fin 3)).val = win0_10.index t (1 : Fin 3) ∧ (grid0.coords t (2 : Fin 3)).val = win0_10.index t (2 : Fin 3)
    ∧ win0_10.index t (0 : Fin 3) ≤ 7 ∧ win0_10.index t (1 : Fin 3) ≤ 3 ∧ win0_10.index t (2 : Fin 3) ≤ 3 :=
  (by decide +kernel : ∀ t : Fin grid0.N, _)

/-- Every block of the output array is some point's. -/
theorem idx_onto : ∀ (q0 : Fin 8) (q1 : Fin 4) (q2 : Fin 4), ∃ t : Fin cfg0.N, win0_10.index t = ![q0.val, q1.val, q2.val] :=
  (by decide +kernel : ∀ (q0 : Fin 8) (q1 : Fin 4) (q2 : Fin 4), ∃ t : Fin grid0.N, win0_10.index t = ![q0.val, q1.val, q2.val])

/-- Window 4's block is the whole array at every point. -/
theorem iblk4_eq (c : Dev nD) (t : Fin cfg0.N) : (iblk m c 4 t : S1x32.Idx → EReal) = V m c main_arg2 := by
  obtain ⟨-, -, -, -, -, -, -, -, -, -, -, -, e40, e41, e50, e60, e61, e70, e80, e81, e90, -⟩ := idx_facts t
  funext y
  show V m c main_arg2 (((cfg0.win 4).blk t).view.emb y) = V m c main_arg2 y
  congr 1
  funext a; apply Fin.ext
  match a with
  | ⟨0, _⟩ => show win0_4.index t (0 : Fin 2) * S1x32.size 0 + 1 * (y 0).val = (y 0).val; rw [e40]; omega
  | ⟨1, _⟩ => show win0_4.index t (1 : Fin 2) * S1x32.size 1 + 1 * (y 1).val = (y 1).val; rw [e41]; omega
/-- Window 5's block is the whole array at every point. -/
theorem iblk5_eq (c : Dev nD) (t : Fin cfg0.N) : (iblk m c 5 t : S32.Idx → EReal) = V m c main_arg3 := by
  obtain ⟨-, -, -, -, -, -, -, -, -, -, -, -, e40, e41, e50, e60, e61, e70, e80, e81, e90, -⟩ := idx_facts t
  funext y
  show V m c main_arg3 (((cfg0.win 5).blk t).view.emb y) = V m c main_arg3 y
  congr 1
  funext a; apply Fin.ext
  match a with
  | ⟨0, _⟩ => show win0_5.index t (0 : Fin 1) * S32.size 0 + 1 * (y 0).val = (y 0).val; rw [e50]; omega
/-- Window 6's block is the whole array at every point. -/
theorem iblk6_eq (c : Dev nD) (t : Fin cfg0.N) : (iblk m c 6 t : S32x32.Idx → EReal) = V m c main_arg4 := by
  obtain ⟨-, -, -, -, -, -, -, -, -, -, -, -, e40, e41, e50, e60, e61, e70, e80, e81, e90, -⟩ := idx_facts t
  funext y
  show V m c main_arg4 (((cfg0.win 6).blk t).view.emb y) = V m c main_arg4 y
  congr 1
  funext a; apply Fin.ext
  match a with
  | ⟨0, _⟩ => show win0_6.index t (0 : Fin 2) * S32x32.size 0 + 1 * (y 0).val = (y 0).val; rw [e60]; omega
  | ⟨1, _⟩ => show win0_6.index t (1 : Fin 2) * S32x32.size 1 + 1 * (y 1).val = (y 1).val; rw [e61]; omega
/-- Window 7's block is the whole array at every point. -/
theorem iblk7_eq (c : Dev nD) (t : Fin cfg0.N) : (iblk m c 7 t : S32.Idx → EReal) = V m c main_arg5 := by
  obtain ⟨-, -, -, -, -, -, -, -, -, -, -, -, e40, e41, e50, e60, e61, e70, e80, e81, e90, -⟩ := idx_facts t
  funext y
  show V m c main_arg5 (((cfg0.win 7).blk t).view.emb y) = V m c main_arg5 y
  congr 1
  funext a; apply Fin.ext
  match a with
  | ⟨0, _⟩ => show win0_7.index t (0 : Fin 1) * S32.size 0 + 1 * (y 0).val = (y 0).val; rw [e70]; omega
/-- Window 8's block is the whole array at every point. -/
theorem iblk8_eq (c : Dev nD) (t : Fin cfg0.N) : (iblk m c 8 t : S32x1.Idx → EReal) = V m c main_arg6 := by
  obtain ⟨-, -, -, -, -, -, -, -, -, -, -, -, e40, e41, e50, e60, e61, e70, e80, e81, e90, -⟩ := idx_facts t
  funext y
  show V m c main_arg6 (((cfg0.win 8).blk t).view.emb y) = V m c main_arg6 y
  congr 1
  funext a; apply Fin.ext
  match a with
  | ⟨0, _⟩ => show win0_8.index t (0 : Fin 2) * S32x1.size 0 + 1 * (y 0).val = (y 0).val; rw [e80]; omega
  | ⟨1, _⟩ => show win0_8.index t (1 : Fin 2) * S32x1.size 1 + 1 * (y 1).val = (y 1).val; rw [e81]; omega
/-- Window 9's block is the whole array at every point. -/
theorem iblk9_eq (c : Dev nD) (t : Fin cfg0.N) : (iblk m c 9 t : S1.Idx → EReal) = V m c main_arg7 := by
  obtain ⟨-, -, -, -, -, -, -, -, -, -, -, -, e40, e41, e50, e60, e61, e70, e80, e81, e90, -⟩ := idx_facts t
  funext y
  show V m c main_arg7 (((cfg0.win 9).blk t).view.emb y) = V m c main_arg7 y
  congr 1
  funext a; apply Fin.ext
  match a with
  | ⟨0, _⟩ => show win0_9.index t (0 : Fin 1) * S1.size 0 + 1 * (y 0).val = (y 0).val; rw [e90]; omega

/-- WHAT POINT `t` WRITES BACK is block `t` of the closed form of the arrays as the region finds them. -/
theorem flushed_eq (hB : BlockFact) (c : Dev nD) (t : Fin cfg0.N) :
    (dats m 0 c).flushed 10 t = ((cfg0.win 10).blk t).view.read (Elt Ideal)
      (outArr (V m c main_arg0) (V m c main_v1) (V m c main_arg2) (V m c main_arg3) (V m c main_arg4) (V m c main_arg5) (V m c main_arg6) (V m c main_arg7)) := by
  show (cfg0.win 10).cut (grid0.coords t) ((dats m 0 c).after 10 t) = _
  rw [after0_10]
  unfold outTile
  rw [iblk4_eq, iblk5_eq, iblk6_eq, iblk7_eq, iblk8_eq, iblk9_eq]
  obtain ⟨e00, e01, e02, e10, e11, e12, e20, e21, e22, e30, e31, e32, -, -, -, -, -, -, -, -, -, g1, g2, b0, b1, b2⟩ := idx_facts t
  funext j
  obtain ⟨z, p, q, rfl⟩ : ∃ (z : Fin 1) (p q : Fin 256), j = ix3 z p q := ⟨j 0, j 1, j 2, eq_ix3 j⟩
  obtain rfl : z = 0 := Subsingleton.elim _ _
  show Block.storedTile (F := Ideal) (grid0.coords t) (iblk m c 0 t) (iblk m c 1 t) (V m c main_arg2) (V m c main_arg3) (V m c main_arg4)
      (V m c main_arg5) (V m c main_arg6) (V m c main_arg7) (iblk m c 2 t) (iblk m c 3 t) (ix3 (0 : Fin 1) p q)
    = outArr (V m c main_arg0) (V m c main_v1) (V m c main_arg2) (V m c main_arg3) (V m c main_arg4) (V m c main_arg5) (V m c main_arg6) (V m c main_arg7)
        (((cfg0.win 10).blk t).view.emb (ix3 (0 : Fin 1) p q))
  rw [hB]
  unfold outArr outAt
  refine congrArg₂ (· * ·) (congrArg₂ (· * ·) (congrArg (_ * ·) (congrArg₂ (· + ·) (congrArg _ ?h0) (congrArg _ ?h1)))
    (congrArg₂ (· * ·) ?h2 ?h3)) (if_congr ?hne rfl rfl)
  case h0 =>
    show V m c main_arg0 (((cfg0.win 0).blk t).view.emb (ix3 (0 : Fin 1) p q)) = V m c main_arg0 _
    congr 1
    funext a; apply Fin.ext
    match a with
    | ⟨0, _⟩ => show win0_0.index t (0 : Fin 3) * 1 + 1 * ((0 : Fin 1) : Fin 1).val = win0_10.index t (0 : Fin 3) * 1 + 1 * ((0 : Fin 1) : Fin 1).val; omega
    | ⟨1, _⟩ => show win0_0.index t (1 : Fin 3) * 256 + 1 * p.val = win0_10.index t (1 : Fin 3) * 256 + 1 * p.val; omega
    | ⟨2, _⟩ => show win0_0.index t (2 : Fin 3) * 256 + 1 * q.val = win0_10.index t (2 : Fin 3) * 256 + 1 * q.val; omega
  case h1 =>
    show V m c main_arg0 (((cfg0.win 1).blk t).view.emb (ix3 (0 : Fin 1) q p)) = V m c main_arg0 _
    congr 1
    funext a; apply Fin.ext
    match a with
    | ⟨0, _⟩ => show win0_1.index t (0 : Fin 3) * 1 + 1 * ((0 : Fin 1) : Fin 1).val = win0_10.index t (0 : Fin 3) * 1 + 1 * ((0 : Fin 1) : Fin 1).val; omega
    | ⟨1, _⟩ => show win0_1.index t (1 : Fin 3) * 256 + 1 * q.val = win0_10.index t (2 : Fin 3) * 256 + 1 * q.val; omega
    | ⟨2, _⟩ => show win0_1.index t (2 : Fin 3) * 256 + 1 * p.val = win0_10.index t (1 : Fin 3) * 256 + 1 * p.val; omega
  case h2 =>
    show V m c main_v1 (((cfg0.win 2).blk t).view.emb (ix3 (0 : Fin 1) (0 : Fin 1) p)) = V m c main_v1 _
    congr 1
    funext a; apply Fin.ext
    match a with
    | ⟨0, _⟩ => show win0_2.index t (0 : Fin 3) * 1 + 1 * ((0 : Fin 1) : Fin 1).val = win0_10.index t (0 : Fin 3) * 1 + 1 * ((0 : Fin 1) : Fin 1).val; omega
    | ⟨1, _⟩ => show win0_2.index t (1 : Fin 3) * 1 + 1 * ((0 : Fin 1) : Fin 1).val = ((0 : Fin 1) : Fin 1).val; omega
    | ⟨2, _⟩ => show win0_2.index t (2 : Fin 3) * 256 + 1 * p.val = win0_10.index t (1 : Fin 3) * 256 + 1 * p.val; omega
  case h3 =>
    show V m c main_v1 (((cfg0.win 3).blk t).view.emb (ix3 (0 : Fin 1) (0 : Fin 1) q)) = V m c main_v1 _
    congr 1
    funext a; apply Fin.ext
    match a with
    | ⟨0, _⟩ => show win0_3.index t (0 : Fin 3) * 1 + 1 * ((0 : Fin 1) : Fin 1).val = win0_10.index t (0 : Fin 3) * 1 + 1 * ((0 : Fin 1) : Fin 1).val; omega
    | ⟨1, _⟩ => show win0_3.index t (1 : Fin 3) * 1 + 1 * ((0 : Fin 1) : Fin 1).val = ((0 : Fin 1) : Fin 1).val; omega
    | ⟨2, _⟩ => show win0_3.index t (2 : Fin 3) * 256 + 1 * q.val = win0_10.index t (2 : Fin 3) * 256 + 1 * q.val; omega
  case hne =>
    show ((grid0.coords t (1 : Fin 3)).val * 256 + p.val ≠ (grid0.coords t (2 : Fin 3)).val * 256 + q.val)
      ↔ (win0_10.index t (1 : Fin 3) * 256 + 1 * p.val ≠ win0_10.index t (2 : Fin 3) * 256 + 1 * q.val)
    omega

/-- An index of the array is in point `t`'s block iff each coordinate is in the block's range on its axis. -/
theorem mem_blk (t : Fin cfg0.N) (i : S8x1024x1024.Idx) :
    i ∈ ((cfg0.win 10).blk t).view.set ↔ ∀ a : Fin 3, win0_10.index t a * S1x256x256.size a ≤ (i a).val ∧ (i a).val < win0_10.index t a * S1x256x256.size a + S1x256x256.size a := by
  show i ∈ ((View.whole main_v2).slice (win0_10.rect t)).set ↔ _
  rw [View.set_slice_whole, Rect.mem_set_unit]
  exact Iff.rfl

/-- The 128 tiles cover the array: the point whose tile holds row r and column s of batch b is (b, r / 256, s / 256). -/
theorem cover (i : S8x1024x1024.Idx) : ∃ t : Fin cfg0.N, (cfg0.win 10).flush t = true ∧ i ∈ ((cfg0.win 10).blk t).view.set := by
  have hi0 : (i 0).val < 8 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩ ⟨(i 2).val / 256, by omega⟩
  have q0 : win0_10.index t (0 : Fin 3) = (i 0).val := congrFun ht 0
  have q1 : win0_10.index t (1 : Fin 3) = (i 1).val / 256 := congrFun ht 1
  have q2 : win0_10.index t (2 : Fin 3) = (i 2).val / 256 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 256 ≤ (i 2).val ∧ (i 2).val < win0_10.index t (2 : Fin 3) * 256 + 256; omega

/-- THE OUTPUT ARRAY after the run: the closed form of the arrays as the region finds them. -/
theorem final (hB : BlockFact) (c : Dev nD) :
    (dats m 0 c).arrAt 10 cfg0.N
      = outArr (V m c main_arg0) (V m c main_v1) (V m c main_arg2) (V m c main_arg3) (V m c main_arg4) (V m c main_arg5) (V m c main_arg6) (V m c main_arg7) :=
  (dats m 0 c).arrAt_eq_of_cover 10 _ (fun t _ => flushed_eq m hB c t) cover

/-- The same over the launch memory: the float mask the region finds is the conversion of the argument's bits, and
    no host operation writes an argument. -/
theorem final_result (hB : BlockFact) (c : Dev nD) :
    (dats m 0 c).arrAt 10 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [final m hB c, V_main_arg0, V_main_arg2, V_main_arg3, V_main_arg4, V_main_arg5, V_main_arg6, V_main_arg7]
  exact Cert.KernelIdeal.MaskGlue.outArr_eq_result _ _ _ _ _ _ _ _ _ (fun b I => Cert.KernelIdeal.MaskGlue.V_mask_at m c b I)

/-- The kernel's run, read: the result array ends at the common function of the argument arrays, which end unchanged. -/
theorem run (hB : BlockFact) : θ_run defs (onTc (τ := τ) (main (F := Ideal))) ⟨m, fun _ => 0, ρ⟩ (fun r => ∀ c : Dev nD,
      r.2.mem ((c.tc : Thread nD τ).loc main_v2)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 10).trans (final_result m hB c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).1 5).trans (((dats m 0 c).arrAt_in 5 rfl _).trans ((A_eq m c 5).trans (V_main_arg3 m c))),
     ((h c).1 6).trans (((dats m 0 c).arrAt_in 6 rfl _).trans ((A_eq m c 6).trans (V_main_arg4 m c))),
     ((h c).1 7).trans (((dats m 0 c).arrAt_in 7 rfl _).trans ((A_eq m c 7).trans (V_main_arg5 m c))),
     ((h c).1 8).trans (((dats m 0 c).arrAt_in 8 rfl _).trans ((A_eq m c 8).trans (V_main_arg6 m c))),
     ((h c).1 9).trans (((dats m 0 c).arrAt_in 9 rfl _).trans ((A_eq m c 9).trans (V_main_arg7 m c)))⟩) (run_main m ρ)

end Cert.KernelIdeal.HandValue

end
-- ==== Proof.BlockValue.lean ====
/-
  The arithmetic of one grid point, read at one entry of the tile.

  The body computes, for every entry x of a 256 × 256 tile, the logistic of a perceptron with one input, two hidden
  layers of 32 rectified units and one output. It keeps the first hidden layer as a 256 × 32 × 256 block (the hidden
  unit on the middle axis), and for each unit k of the second layer multiplies that block by column k of the second
  weight matrix spread along the two tile axes, sums over the middle axis, adds the bias, rectifies, and adds the
  output weight times the result to an accumulator that starts at the output bias.

  Read at the entry (p, q), every layout operation names one entry of its operand, a sum over the middle axis is a
  sum over the 32 hidden units, and the 32 accumulation steps give
    b3 + w3[0] * c 0 + w3[1] * c 1 + … + w3[31] * c 31,   c k = max ((∑ a, hid1 x a * w2[a, k]) + b2[k]) 0,
  which is the specification's (∑ k, c k * w3[k]) + b3 by commutativity and associativity of the extended reals'
  addition and commutativity of their multiplication; no finiteness is used. For the transposed tile the entry read
  at (p, q) is the tile's entry (q, p).
-/
import proofs.«173317_j58007828300453_2_alg».proof.Proof.Block
import proofs.«173317_j58007828300453_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockValue

open Idealize.ShloMosaic Idealize.ShloMosaic.ValueIdx Cert.KernelIdeal Cert.KernelIdeal.Gen

/-! ## Layout operations of the tile computation, read at an index given by coordinates -/

section Layout
variable {α : Type}

/-- Column `o` of a 32 × 32 matrix, cut out as a 32 × 1 matrix, reads the matrix at `(a, o)`. -/
theorem col_apply (o : ℕ) (X : (⟨2, ![32, 32]⟩ : Shape).Idx → α)
    (h : (⟨2, ![32, 32]⟩ : Shape).Slices ![0, o] ⟨2, ![32, 1]⟩) (a : Fin 32) (z : Fin 1) :
    extractStridedSlice ⟨2, ![32, 1]⟩ ![0, o] X h (ix2 a z) = X (ix2 a ⟨o, h.2 1⟩) :=
  slice2_axis1_apply o X h a z ⟨o, h.2 1⟩ (by have := z.isLt; show o = o + z.val; omega)

/-- Row `o` of a 32 × 1 matrix, cut out as a 1 × 1 matrix, reads the matrix at `(o, z')`. -/
theorem row_apply (o : ℕ) (X : (⟨2, ![32, 1]⟩ : Shape).Idx → α)
    (h : (⟨2, ![32, 1]⟩ : Shape).Slices ![o, 0] ⟨2, ![1, 1]⟩) (z z' : Fin 1) :
    extractStridedSlice ⟨2, ![1, 1]⟩ ![o, 0] X h (ix2 z z') = X (ix2 ⟨o, h.2 0⟩ z') :=
  slice2_axis0_apply o X h z z' ⟨o, h.2 0⟩ (by have := z.isLt; show o = o + z.val; omega)

/-- Entry `o` of a vector of 32, cut out as a vector of one, reads the vector at `o`. -/
theorem entry_apply (o : ℕ) (X : (⟨1, ![32]⟩ : Shape).Idx → α)
    (h : (⟨1, ![32]⟩ : Shape).Slices ![o] ⟨1, ![1]⟩) (z : Fin 1) :
    extractStridedSlice ⟨1, ![1]⟩ ![o] X h (ix1 z) = X (ix1 ⟨o, h.2 0⟩) :=
  extractStridedSlice_apply _ _ _ _ _ (fun ax => by
    match ax with
    | ⟨0, _⟩ => have := z.isLt; show o = o + z.val; omega)

/-- The one entry of a vector of one. -/
theorem extractAt_one (X : (⟨1, ![1]⟩ : Shape).Idx → α) (h : ∀ a, (![0] : Fin 1 → ℕ) a < (⟨1, ![1]⟩ : Shape).size a) :
    extractAt ![0] X h = X (ix1 (0 : Fin 1)) :=
  congrArg X (funext fun d => match d with | ⟨0, _⟩ => rfl)

/-- The one entry of a 1 × 1 matrix. -/
theorem extractAt_one_one (X : (⟨2, ![1, 1]⟩ : Shape).Idx → α)
    (h : ∀ a, (![0, 0] : Fin 2 → ℕ) a < (⟨2, ![1, 1]⟩ : Shape).size a) :
    extractAt ![0, 0] X h = X (ix2 (0 : Fin 1) (0 : Fin 1)) :=
  congrArg X (funext fun d => match d with | ⟨0, _⟩ => rfl | ⟨1, _⟩ => rfl)

/-- A 32 × 1 matrix read as a vector of 32. -/
theorem cast_col_apply (X : (⟨2, ![32, 1]⟩ : Shape).Idx → α) (h : (⟨2, ![32, 1]⟩ : Shape).ShapeCasts ⟨1, ![32]⟩)
    (a : Fin 32) : shapeCast ⟨1, ![32]⟩ X h (ix1 a) = X (ix2 a (0 : Fin 1)) :=
  shapeCast_apply X h _ _ (by
    rw [Shape.rowMajor_val_two, Shape.rowMajor_val_one]
    show a.val * 1 + 0 = a.val
    omega)

/-- A vector of 32 read as a 1 × 32 × 1 array. -/
theorem cast_lane_apply (X : (⟨1, ![32]⟩ : Shape).Idx → α) (h : (⟨1, ![32]⟩ : Shape).ShapeCasts ⟨3, ![1, 32, 1]⟩)
    (u : Fin 1) (a : Fin 32) (w : Fin 1) : shapeCast ⟨3, ![1, 32, 1]⟩ X h (ix3 u a w) = X (ix1 a) :=
  shapeCast_apply X h _ _ (by
    have hu := u.isLt
    have hw := w.isLt
    rw [Shape.rowMajor_val_three, Shape.rowMajor_val_one]
    show a.val = (u.val * 32 + a.val) * 1 + w.val
    omega)

/-- A 1 × 32 × 1 array spread over a 256 × 32 × 256 block reads its entry on the middle axis. -/
theorem bcast_lane_apply (X : (⟨3, ![1, 32, 1]⟩ : Shape).Idx → α)
    (h : (⟨3, ![1, 32, 1]⟩ : Shape).Broadcasts ⟨3, ![256, 32, 256]⟩) (p : Fin 256) (a : Fin 32) (q : Fin 256) :
    broadcastTo ⟨3, ![256, 32, 256]⟩ X h (ix3 p a q) = X (ix3 (0 : Fin 1) a (0 : Fin 1)) :=
  broadcastTo_apply X h _ _ (fun ax => by
    match ax with
    | ⟨0, _⟩ => rfl
    | ⟨1, _⟩ => rfl
    | ⟨2, _⟩ => rfl)

/-- A 256 × 1 × 256 array spread over a 256 × 32 × 256 block reads its entry on the two outer axes. -/
theorem bcast_tile_apply (X : (⟨3, ![256, 1, 256]⟩ : Shape).Idx → α)
    (h : (⟨3, ![256, 1, 256]⟩ : Shape).Broadcasts ⟨3, ![256, 32, 256]⟩) (p : Fin 256) (a : Fin 32) (q : Fin 256) :
    broadcastTo ⟨3, ![256, 32, 256]⟩ X h (ix3 p a q) = X (ix3 p (0 : Fin 1) q) :=
  broadcastTo_apply X h _ _ (fun ax => by
    match ax with
    | ⟨0, _⟩ => rfl
    | ⟨1, _⟩ => rfl
    | ⟨2, _⟩ => rfl)

/-- A 256 × 256 tile read as a 256 × 1 × 256 array. -/
theorem cast_tile_apply (X : (⟨2, ![256, 256]⟩ : Shape).Idx → α)
    (h : (⟨2, ![256, 256]⟩ : Shape).ShapeCasts ⟨3, ![256, 1, 256]⟩) (p : Fin 256) (u : Fin 1) (q : Fin 256) :
    shapeCast ⟨3, ![256, 1, 256]⟩ X h (ix3 p u q) = X (ix2 p q) :=
  shapeCast_apply X h _ _ (by
    have hu := u.isLt
    rw [Shape.rowMajor_val_three, Shape.rowMajor_val_two]
    show p.val * 256 + q.val = (p.val * 1 + u.val) * 256 + q.val
    omega)

end Layout

/-! ## The arithmetic read at an index -/

/-- A sum over the middle axis of a 256 × 32 × 256 block, read at `(p, q)`. -/
theorem lane_sum_apply (src : FVec Ideal S256x32x256 .f32)
    (h : S256x32x256.Reduces [1] S256x256) (hφ : FKind.Formats .f32)
    (hacc : (0x00000000#32 : BitVec 32) = 0x00000000#32) (p q : Fin 256) :
    multiReduction (F := Ideal) .add [1] S256x256 src 0x00000000#32 h hφ hacc (ix2 p q)
      = ∑ a : Fin 32, src (ix3 p a q) := by
  refine (Ideal.multiReduction_add_single src 0x00000000#32 h hφ hacc (ix2 p q)).trans ?_
  refine Finset.sum_congr rfl fun a _ => congrArg src (funext fun d => Fin.ext ?_)
  match d with
  | ⟨0, _⟩ => rfl
  | ⟨1, _⟩ => rfl
  | ⟨2, _⟩ => rfl

/-- The logistic of a vector, read at an index. -/
theorem logistic_apply {s : Shape} {φ : FTy} (a : FVec Ideal s φ) (i : s.Idx) :
    logistic a i = Ideal.logistic (a i) := rfl

/-- The zero word of the rectifier is the extended real zero. -/
theorem zero_word : (FloatOps.ofBits (F := Ideal) .f32 0x00000000#32 : EReal) = 0 := Ideal.ofBits_zero_f32

/-- The first hidden layer of the tile `v0`, read at `(p, a, q)`. -/
theorem pay5_apply (v0 : Vec Ideal S1x256x256 .f32) (v5 : Vec Ideal S1x32 .f32) (v7 : Vec Ideal S32 .f32)
    (p : Fin 256) (a : Fin 32) (q : Fin 256) :
    k0_pay5 (F := Ideal) v0 v5 v7 (ix3 p a q) = Cert.PairScore.hid1 v5 v7 (v0 (ix3 (0 : Fin 1) p q)) a := by
  unfold k0_pay5 k0_pay3 Cert.PairScore.hid1
  simp only [maximumf_apply, addf_apply, mulf_apply, broadcast_apply, bcast_tile_apply, bcast_lane_apply,
    cast_tile_apply, cast_lane_apply, shapeCast_1ab_ab_apply, shapeCast_1a_a_apply, zero_word]

/-- The same with the axis list typed over `Fin 3`, the form the rank takes once it is computed. -/
theorem lane_sum_apply' (src : FVec Ideal S256x32x256 .f32)
    (h : S256x32x256.Reduces ([1] : List (Fin 3)) S256x256) (hφ : FKind.Formats .f32)
    (hacc : (0x00000000#32 : BitVec 32) = 0x00000000#32) (p q : Fin 256) :
    multiReduction (F := Ideal) (s := S256x32x256) .add ([1] : List (Fin 3)) S256x256 src 0x00000000#32 h hφ hacc (ix2 p q)
      = ∑ a : Fin 32, src (ix3 p a q) :=
  lane_sum_apply src h hφ hacc p q

/-! ## The accumulation over the 32 units of the second layer -/

/-- A sum over `Fin 32` written out, in the order of the indices. -/
theorem sum32 (T : Fin 32 → EReal) :
    ∑ k, T k = T ⟨0, by decide⟩ + T ⟨1, by decide⟩ + T ⟨2, by decide⟩ + T ⟨3, by decide⟩ + T ⟨4, by decide⟩
      + T ⟨5, by decide⟩ + T ⟨6, by decide⟩ + T ⟨7, by decide⟩ + T ⟨8, by decide⟩ + T ⟨9, by decide⟩
      + T ⟨10, by decide⟩ + T ⟨11, by decide⟩ + T ⟨12, by decide⟩ + T ⟨13, by decide⟩ + T ⟨14, by decide⟩
      + T ⟨15, by decide⟩ + T ⟨16, by decide⟩ + T ⟨17, by decide⟩ + T ⟨18, by decide⟩ + T ⟨19, by decide⟩
      + T ⟨20, by decide⟩ + T ⟨21, by decide⟩ + T ⟨22, by decide⟩ + T ⟨23, by decide⟩ + T ⟨24, by decide⟩
      + T ⟨25, by decide⟩ + T ⟨26, by decide⟩ + T ⟨27, by decide⟩ + T ⟨28, by decide⟩ + T ⟨29, by decide⟩
      + T ⟨30, by decide⟩ + T ⟨31, by decide⟩ := by
  simp only [Fin.sum_univ_castSucc, Fin.sum_univ_zero, zero_add]
  rfl

/-- The accumulator that starts at `b` and adds the 32 terms one after the other is the sum of the terms plus `b`:
only commutativity and associativity of the extended reals' addition. -/
theorem chain32 (b : EReal) (T : Fin 32 → EReal) :
    b + T ⟨0, by decide⟩ + T ⟨1, by decide⟩ + T ⟨2, by decide⟩ + T ⟨3, by decide⟩ + T ⟨4, by decide⟩
      + T ⟨5, by decide⟩ + T ⟨6, by decide⟩ + T ⟨7, by decide⟩ + T ⟨8, by decide⟩ + T ⟨9, by decide⟩
      + T ⟨10, by decide⟩ + T ⟨11, by decide⟩ + T ⟨12, by decide⟩ + T ⟨13, by decide⟩ + T ⟨14, by decide⟩
      + T ⟨15, by decide⟩ + T ⟨16, by decide⟩ + T ⟨17, by decide⟩ + T ⟨18, by decide⟩ + T ⟨19, by decide⟩
      + T ⟨20, by decide⟩ + T ⟨21, by decide⟩ + T ⟨22, by decide⟩ + T ⟨23, by decide⟩ + T ⟨24, by decide⟩
      + T ⟨25, by decide⟩ + T ⟨26, by decide⟩ + T ⟨27, by decide⟩ + T ⟨28, by decide⟩ + T ⟨29, by decide⟩
      + T ⟨30, by decide⟩ + T ⟨31, by decide⟩ = (∑ k, T k) + b := by
  rw [sum32 T, add_comm _ b]
  simp only [add_assoc]

/-! ## The score of every entry of a tile -/

/-- The accumulator's value after the 32 units, started at the output bias `b3`, is the specification's
pre-activation: each unit of the second layer weighted by its output weight (the kernel multiplies the weight on
the left, the specification on the right), summed, plus the bias. -/
theorem accumulated_eq (w1 : Vec Ideal S1x32 .f32) (b1 : Vec Ideal S32 .f32) (w2 : Vec Ideal S32x32 .f32)
    (b2 : Vec Ideal S32 .f32) (w3 : Vec Ideal S32x1 .f32) (b3 : Vec Ideal S1 .f32) (x : EReal) :
    Ideal.logistic (b3 (ix1 (0 : Fin 1))
      + w3 (ix2 ⟨0, by decide⟩ (0 : Fin 1)) * max ((∑ a, Cert.PairScore.hid1 w1 b1 x a * w2 (ix2 a ⟨0, by decide⟩)) + b2 (ix1 ⟨0, by decide⟩)) 0
      + w3 (ix2 ⟨1, by decide⟩ (0 : Fin 1)) * max ((∑ a, Cert.PairScore.hid1 w1 b1 x a * w2 (ix2 a ⟨1, by decide⟩)) + b2 (ix1 ⟨1, by decide⟩)) 0
      + w3 (ix2 ⟨2, by decide⟩ (0 : Fin 1)) * max ((∑ a, Cert.PairScore.hid1 w1 b1 x a * w2 (ix2 a ⟨2, by decide⟩)) + b2 (ix1 ⟨2, by decide⟩)) 0
      + w3 (ix2 ⟨3, by decide⟩ (0 : Fin 1)) * max ((∑ a, Cert.PairScore.hid1 w1 b1 x a * w2 (ix2 a ⟨3, by decide⟩)) + b2 (ix1 ⟨3, by decide⟩)) 0
      + w3 (ix2 ⟨4, by decide⟩ (0 : Fin 1)) * max ((∑ a, Cert.PairScore.hid1 w1 b1 x a * w2 (ix2 a ⟨4, by decide⟩)) + b2 (ix1 ⟨4, by decide⟩)) 0
      + w3 (ix2 ⟨5, by decide⟩ (0 : Fin 1)) * max ((∑ a, Cert.PairScore.hid1 w1 b1 x a * w2 (ix2 a ⟨5, by decide⟩)) + b2 (ix1 ⟨5, by decide⟩)) 0
      + w3 (ix2 ⟨6, by decide⟩ (0 : Fin 1)) * max ((∑ a, Cert.PairScore.hid1 w1 b1 x a * w2 (ix2 a ⟨6, by decide⟩)) + b2 (ix1 ⟨6, by decide⟩)) 0
      + w3 (ix2 ⟨7, by decide⟩ (0 : Fin 1)) * max ((∑ a, Cert.PairScore.hid1 w1 b1 x a * w2 (ix2 a ⟨7, by decide⟩)) + b2 (ix1 ⟨7, by decide⟩)) 0
      + w3 (ix2 ⟨8, by decide⟩ (0 : Fin 1)) * max ((∑ a, Cert.PairScore.hid1 w1 b1 x a * w2 (ix2 a ⟨8, by decide⟩)) + b2 (ix1 ⟨8, by decide⟩)) 0
      + w3 (ix2 ⟨9, by decide⟩ (0 : Fin 1)) * max ((∑ a, Cert.PairScore.hid1 w1 b1 x a * w2 (ix2 a ⟨9, by decide⟩)) + b2 (ix1 ⟨9, by decide⟩)) 0
      + w3 (ix2 ⟨10, by decide⟩ (0 : Fin 1)) * max ((∑ a, Cert.PairScore.hid1 w1 b1 x a * w2 (ix2 a ⟨10, by decide⟩)) + b2 (ix1 ⟨10, by decide⟩)) 0
      + w3 (ix2 ⟨11, by decide⟩ (0 : Fin 1)) * max ((∑ a, Cert.PairScore.hid1 w1 b1 x a * w2 (ix2 a ⟨11, by decide⟩)) + b2 (ix1 ⟨11, by decide⟩)) 0
      + w3 (ix2 ⟨12, by decide⟩ (0 : Fin 1)) * max ((∑ a, Cert.PairScore.hid1 w1 b1 x a * w2 (ix2 a ⟨12, by decide⟩)) + b2 (ix1 ⟨12, by decide⟩)) 0
      + w3 (ix2 ⟨13, by decide⟩ (0 : Fin 1)) * max ((∑ a, Cert.PairScore.hid1 w1 b1 x a * w2 (ix2 a ⟨13, by decide⟩)) + b2 (ix1 ⟨13, by decide⟩)) 0
      + w3 (ix2 ⟨14, by decide⟩ (0 : Fin 1)) * max ((∑ a, Cert.PairScore.hid1 w1 b1 x a * w2 (ix2 a ⟨14, by decide⟩)) + b2 (ix1 ⟨14, by decide⟩)) 0
      + w3 (ix2 ⟨15, by decide⟩ (0 : Fin 1)) * max ((∑ a, Cert.PairScore.hid1 w1 b1 x a * w2 (ix2 a ⟨15, by decide⟩)) + b2 (ix1 ⟨15, by decide⟩)) 0
      + w3 (ix2 ⟨16, by decide⟩ (0 : Fin 1)) * max ((∑ a, Cert.PairScore.hid1 w1 b1 x a * w2 (ix2 a ⟨16, by decide⟩)) + b2 (ix1 ⟨16, by decide⟩)) 0
      + w3 (ix2 ⟨17, by decide⟩ (0 : Fin 1)) * max ((∑ a, Cert.PairScore.hid1 w1 b1 x a * w2 (ix2 a ⟨17, by decide⟩)) + b2 (ix1 ⟨17, by decide⟩)) 0
      + w3 (ix2 ⟨18, by decide⟩ (0 : Fin 1)) * max ((∑ a, Cert.PairScore.hid1 w1 b1 x a * w2 (ix2 a ⟨18, by decide⟩)) + b2 (ix1 ⟨18, by decide⟩)) 0
      + w3 (ix2 ⟨19, by decide⟩ (0 : Fin 1)) * max ((∑ a, Cert.PairScore.hid1 w1 b1 x a * w2 (ix2 a ⟨19, by decide⟩)) + b2 (ix1 ⟨19, by decide⟩)) 0
      + w3 (ix2 ⟨20, by decide⟩ (0 : Fin 1)) * max ((∑ a, Cert.PairScore.hid1 w1 b1 x a * w2 (ix2 a ⟨20, by decide⟩)) + b2 (ix1 ⟨20, by decide⟩)) 0
      + w3 (ix2 ⟨21, by decide⟩ (0 : Fin 1)) * max ((∑ a, Cert.PairScore.hid1 w1 b1 x a * w2 (ix2 a ⟨21, by decide⟩)) + b2 (ix1 ⟨21, by decide⟩)) 0
      + w3 (ix2 ⟨22, by decide⟩ (0 : Fin 1)) * max ((∑ a, Cert.PairScore.hid1 w1 b1 x a * w2 (ix2 a ⟨22, by decide⟩)) + b2 (ix1 ⟨22, by decide⟩)) 0
      + w3 (ix2 ⟨23, by decide⟩ (0 : Fin 1)) * max ((∑ a, Cert.PairScore.hid1 w1 b1 x a * w2 (ix2 a ⟨23, by decide⟩)) + b2 (ix1 ⟨23, by decide⟩)) 0
      + w3 (ix2 ⟨24, by decide⟩ (0 : Fin 1)) * max ((∑ a, Cert.PairScore.hid1 w1 b1 x a * w2 (ix2 a ⟨24, by decide⟩)) + b2 (ix1 ⟨24, by decide⟩)) 0
      + w3 (ix2 ⟨25, by decide⟩ (0 : Fin 1)) * max ((∑ a, Cert.PairScore.hid1 w1 b1 x a * w2 (ix2 a ⟨25, by decide⟩)) + b2 (ix1 ⟨25, by decide⟩)) 0
      + w3 (ix2 ⟨26, by decide⟩ (0 : Fin 1)) * max ((∑ a, Cert.PairScore.hid1 w1 b1 x a * w2 (ix2 a ⟨26, by decide⟩)) + b2 (ix1 ⟨26, by decide⟩)) 0
      + w3 (ix2 ⟨27, by decide⟩ (0 : Fin 1)) * max ((∑ a, Cert.PairScore.hid1 w1 b1 x a * w2 (ix2 a ⟨27, by decide⟩)) + b2 (ix1 ⟨27, by decide⟩)) 0
      + w3 (ix2 ⟨28, by decide⟩ (0 : Fin 1)) * max ((∑ a, Cert.PairScore.hid1 w1 b1 x a * w2 (ix2 a ⟨28, by decide⟩)) + b2 (ix1 ⟨28, by decide⟩)) 0
      + w3 (ix2 ⟨29, by decide⟩ (0 : Fin 1)) * max ((∑ a, Cert.PairScore.hid1 w1 b1 x a * w2 (ix2 a ⟨29, by decide⟩)) + b2 (ix1 ⟨29, by decide⟩)) 0
      + w3 (ix2 ⟨30, by decide⟩ (0 : Fin 1)) * max ((∑ a, Cert.PairScore.hid1 w1 b1 x a * w2 (ix2 a ⟨30, by decide⟩)) + b2 (ix1 ⟨30, by decide⟩)) 0
      + w3 (ix2 ⟨31, by decide⟩ (0 : Fin 1)) * max ((∑ a, Cert.PairScore.hid1 w1 b1 x a * w2 (ix2 a ⟨31, by decide⟩)) + b2 (ix1 ⟨31, by decide⟩)) 0)
      = Cert.PairScore.score w1 b1 w2 b2 w3 b3 x := by
  unfold Cert.PairScore.score Cert.PairScore.hid2
  refine congrArg Ideal.logistic ?_
  refine (chain32 (b3 (ix1 (0 : Fin 1))) (fun k => w3 (ix2 k (0 : Fin 1))
    * max ((∑ a, Cert.PairScore.hid1 w1 b1 x a * w2 (ix2 a k)) + b2 (ix1 k)) 0)).trans ?_
  exact congrArg (· + b3 (ix1 (0 : Fin 1))) (Finset.sum_congr rfl fun k _ => mul_comm _ _)

/-- The kernel's score of the tile `v0` at `(p, q)` is the specification's score of the entry `v0 (0, p, q)`. -/
theorem scoreTile_apply (v0 : Vec Ideal S1x256x256 .f32) (v5 : Vec Ideal S1x32 .f32) (v7 : Vec Ideal S32 .f32)
    (v8 : Vec Ideal S32x32 .f32) (v9 : Vec Ideal S32 .f32) (v10 : Vec Ideal S32x1 .f32) (v11 : Vec Ideal S1 .f32)
    (p q : Fin 256) :
    Cert.KernelIdeal.Block.scoreTile (F := Ideal) v0 v5 v7 v8 v9 v10 v11 (ix2 p q)
      = Cert.PairScore.score v5 v7 v8 v9 v10 v11 (v0 (ix3 (0 : Fin 1) p q)) := by
  simp only [Cert.KernelIdeal.Block.scoreTile, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29,
    maximumf_apply, addf_apply, mulf_apply, broadcast_apply, logistic_apply, bcast_tile_apply, bcast_lane_apply,
    cast_tile_apply, cast_lane_apply, cast_col_apply, col_apply, row_apply, entry_apply, extractAt_one, extractAt_one_one,
    ↓lane_sum_apply, lane_sum_apply', zero_word, pay5_apply]
  exact accumulated_eq v5 v7 v8 v9 v10 v11 (v0 (ix3 (0 : Fin 1) p q))

/-! ## The score of every entry of the transposed tile -/

/-- The first hidden layer of the transpose of the tile `v2`, read at `(p, a, q)`. -/
theorem hid1T_apply (v2 : Vec Ideal S1x256x256 .f32) (v5 : Vec Ideal S1x32 .f32) (v7 : Vec Ideal S32 .f32)
    (p : Fin 256) (a : Fin 32) (q : Fin 256) :
    k0_pay31 (F := Ideal) (k0_pay30 (k0_pay2 v2) (k0_pay3 v5) v7) (ix3 p a q)
      = Cert.PairScore.hid1 v5 v7 (v2 (ix3 (0 : Fin 1) q p)) a := by
  unfold k0_pay31 k0_pay30 k0_pay2 k0_pay3 Cert.PairScore.hid1
  simp only [maximumf_apply, addf_apply, mulf_apply, broadcast_apply, bcast_tile_apply, bcast_lane_apply,
    cast_tile_apply, cast_lane_apply, shapeCast_1a_a_apply, zero_word]
  rw [transpose_ix2_apply, shapeCast_1ab_ab_apply]

/-- The kernel's score of the transpose of the tile `v2` at `(p, q)` is the specification's score of the entry
`v2 (0, q, p)`. -/
theorem scoreTileT_apply (v2 : Vec Ideal S1x256x256 .f32) (v5 : Vec Ideal S1x32 .f32) (v7 : Vec Ideal S32 .f32)
    (v8 : Vec Ideal S32x32 .f32) (v9 : Vec Ideal S32 .f32) (v10 : Vec Ideal S32x1 .f32) (v11 : Vec Ideal S1 .f32)
    (p q : Fin 256) :
    Cert.KernelIdeal.Block.scoreTileT (F := Ideal) v2 v5 v7 v8 v9 v10 v11 (ix2 p q)
      = Cert.PairScore.score v5 v7 v8 v9 v10 v11 (v2 (ix3 (0 : Fin 1) q p)) := by
  simp only [Cert.KernelIdeal.Block.scoreTileT, k0_pay4, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54,
    maximumf_apply, addf_apply, mulf_apply, broadcast_apply, logistic_apply, bcast_tile_apply, bcast_lane_apply,
    cast_tile_apply, cast_lane_apply, cast_col_apply, col_apply, row_apply, entry_apply, extractAt_one, extractAt_one_one,
    ↓lane_sum_apply, lane_sum_apply', zero_word, hid1T_apply]
  exact accumulated_eq v5 v7 v8 v9 v10 v11 (v2 (ix3 (0 : Fin 1) q p))

end Cert.KernelIdeal.BlockValue

end
-- ==== Proof.BlockStored.lean ====
/-
  The tile one grid point stores, read at an entry, from what its two score tiles are at an entry.

  At the grid point with block numbers (b, r, c) the stored tile is, entry by entry,
    1/2 * (s + t) * m * d,
  where s is the score tile of the block (r, c), t the score tile of the transposed block (c, r) read transposed,
  m the outer product of the mask row of block r (laid out as a column) and the mask row of block c (laid out as
  a row), and d the indicator that the global row number r * 256 + p differs from the global column number
  c * 256 + q. The two numbers are formed as 32-bit words; block numbers are below 4 and offsets below 256, so the
  words do not wrap and differ exactly when the numbers do. The comparison bit is widened and converted, which
  gives the number one or zero.
-/
import proofs.«173317_j58007828300453_2_alg».proof.Proof.Block
import proofs.«173317_j58007828300453_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockStored

open Idealize.ShloMosaic Idealize.ShloMosaic.ValueIdx Cert.KernelIdeal Cert.KernelIdeal.Gen

/-! ## A mask row laid out as a column, and as a row, of the tile -/

section Layout
variable {α : Type}

/-- The row `v` of 256 numbers, viewed as a column and repeated along the second axis, reads `v p` at `(p, q)`. -/
theorem row_as_column (v : S1x1x256.Idx → α) (h1 : S1x1x256.ShapeCasts S1x1x256) (h2 : S1x1x256.ShapeCasts S256)
    (h3 : S256.ShapeCasts S256x1) (h4 : S256x1.Broadcasts S256x256) (p q : Fin 256) :
    broadcastTo S256x256 (shapeCast S256x1 (shapeCast S256 (shapeCast S1x1x256 v h1) h2) h3) h4 (ix2 p q)
      = v (ix3 (0 : Fin 1) (0 : Fin 1) p) := by
  rw [shapeCast_self]
  refine (broadcastTo_apply _ h4 (ix2 p q) (ix2 p (0 : Fin 1)) (fun a => ?_)).trans ?_
  · match a with
    | ⟨0, _⟩ => show p.val = if (256 : Nat) = 1 then 0 else p.val; rw [if_neg (by decide)]
    | ⟨1, _⟩ => show 0 = if (1 : Nat) = 1 then 0 else q.val; rw [if_pos rfl]
  refine (shapeCast_apply _ h3 (ix2 p (0 : Fin 1)) (ix1 p) ?_).trans ?_
  · rw [Shape.rowMajor_val_one, Shape.rowMajor_val_two]
    show p.val = p.val * 1 + 0
    omega
  refine shapeCast_apply _ h2 (ix1 p) (ix3 (0 : Fin 1) (0 : Fin 1) p) ?_
  rw [Shape.rowMajor_val_three, Shape.rowMajor_val_one]
  show (0 * 1 + 0) * 256 + p.val = p.val
  omega

/-- The row `v`, repeated along the first axis, reads `v q` at `(p, q)`. -/
theorem row_as_row (v : S1x1x256.Idx → α) (h1 : S1x1x256.ShapeCasts S1x1x256) (h2 : S1x1x256.ShapeCasts S256)
    (h3 : S256.ShapeCasts S1x256) (h4 : S1x256.Broadcasts S256x256) (p q : Fin 256) :
    broadcastTo S256x256 (shapeCast S1x256 (shapeCast S256 (shapeCast S1x1x256 v h1) h2) h3) h4 (ix2 p q)
      = v (ix3 (0 : Fin 1) (0 : Fin 1) q) := by
  rw [shapeCast_self]
  refine (broadcastTo_1b_ab_apply _ h4 p q).trans ?_
  refine (shapeCast_a_1a_apply _ h3 (0 : Fin 1) q).trans ?_
  refine shapeCast_apply _ h2 (ix1 q) (ix3 (0 : Fin 1) (0 : Fin 1) q) ?_
  rw [Shape.rowMajor_val_three, Shape.rowMajor_val_one]
  show (0 * 1 + 0) * 256 + q.val = q.val
  omega

end Layout

/-- The outer product of the two mask rows at `(p, q)`. -/
theorem pair_at (v1125 v1129 : Vec Ideal S1x1x256 .f32) (p q : Fin 256) :
    k0_pay55 (F := Ideal) v1125 v1129 (ix2 p q)
      = v1125 (ix3 (0 : Fin 1) (0 : Fin 1) p) * v1129 (ix3 (0 : Fin 1) (0 : Fin 1) q) := by
  unfold k0_pay55
  exact congrArg₂ (fun x y : EReal => x * y) (row_as_column v1125 _ _ _ _ p q) (row_as_row v1129 _ _ _ _ p q)

/-! ## The global row and column numbers as 32-bit words -/

theorem rowWord_at (a : BitVec 32) (p q : Fin 256) :
    k0_pay56 a (ix2 p q) = a * 256#32 + BitVec.ofNat 32 p.val := by
  unfold k0_pay56
  show IntOp.addi (Scalar.muli a 256#32) (iota .tc S256x256 32 [0] _ (ix2 p q)) = _
  rw [iota_single_apply]
  rfl

theorem colWord_at (a : BitVec 32) (p q : Fin 256) : k0_pay57 a (ix2 p q) = a * 256#32 := rfl

theorem lane_at (h : S256x256.Iotas .tc 32 [1]) (p q : Fin 256) :
    iota .tc S256x256 32 [1] h (ix2 p q) = BitVec.ofNat 32 q.val := by
  rw [iota_single_apply]

/-- With block numbers below 4 and offsets below 256 nothing wraps in 32 bits: the two words differ exactly when
    the two numbers do. -/
theorem word_eq_iff (a c p q : Nat) (ha : a < 4) (hc : c < 4) (hp : p < 256) (hq : q < 256) :
    BitVec.ofNat 32 a * 256#32 + BitVec.ofNat 32 p = BitVec.ofNat 32 c * 256#32 + BitVec.ofNat 32 q
      ↔ a * 256 + p = c * 256 + q := by
  have key : ∀ (a p : Nat), a < 4 → p < 256 →
      (BitVec.ofNat 32 a * 256#32 + BitVec.ofNat 32 p).toNat = a * 256 + p := by
    intro a p ha hp
    rw [BitVec.toNat_add, BitVec.toNat_mul, BitVec.toNat_ofNat, BitVec.toNat_ofNat, BitVec.toNat_ofNat]
    omega
  constructor
  · intro h
    have h' := congrArg BitVec.toNat h
    rw [key a p ha hp, key c q hc hq] at h'
    exact h'
  · intro h
    apply BitVec.eq_of_toNat_eq
    rw [key a p ha hp, key c q hc hq, h]

/-- The comparison bit, widened to 32 bits and converted, is the number one or zero. -/
theorem differ_word (x y : BitVec 32) :
    FloatOps.sitofp (F := Ideal) .f32 ((IntOp.cmpi .ne x y).setWidth 32) = if x ≠ y then (1 : EReal) else 0 := by
  by_cases h : x = y
  · subst h
    rw [if_neg (fun hne => hne rfl)]
    show (((((BitVec.ofBool (x != x)).setWidth 32).toInt : ℤ) : ℝ) : EReal) = 0
    rw [bne_self_eq_false, show ((BitVec.ofBool false).setWidth 32).toInt = 0 by decide, Int.cast_zero, EReal.coe_zero]
  · rw [if_pos h]
    show (((((BitVec.ofBool (x != y)).setWidth 32).toInt : ℤ) : ℝ) : EReal) = 1
    rw [bne_iff_ne.mpr h, show ((BitVec.ofBool true).setWidth 32).toInt = 1 by decide, Int.cast_one, EReal.coe_one]

/-! ## The stored tile -/

/-- The last payload at an entry: one half of the sum of the two score tiles, times the mask pair, times the
    indicator that the row word differs from the column word. -/
theorem pay1_at (A B C : FVec Ideal S256x256 .f32) (D E G : IVec S256x256 32) (p q : Fin 256) :
    k0_pay1 (F := Ideal) A B C D E G (ix3 (0 : Fin 1) p q)
      = ((Ideal.ofBits .f32 0x3F000000#32 * (A (ix2 p q) + B (ix2 p q))) * C (ix2 p q))
        * (if D (ix2 p q) ≠ G (ix2 p q) + E (ix2 p q) then (1 : EReal) else 0) := by
  unfold k0_pay1
  refine (shapeCast_ab_1ab_apply _ _ (0 : Fin 1) p q).trans ?_
  show ((Ideal.ofBits .f32 0x3F000000#32 * (A (ix2 p q) + B (ix2 p q))) * C (ix2 p q))
      * FloatOps.sitofp (F := Ideal) .f32 ((IntOp.cmpi .ne (D (ix2 p q)) (IntOp.addi (G (ix2 p q)) (E (ix2 p q)))).setWidth 32) = _
  rw [differ_word]
  rfl

theorem storedTile_apply_of (i : grid0.Coords) (v0 v2 : Vec Ideal S1x256x256 .f32) (v5 : Vec Ideal S1x32 .f32)
    (v7 : Vec Ideal S32 .f32) (v8 : Vec Ideal S32x32 .f32) (v9 : Vec Ideal S32 .f32) (v10 : Vec Ideal S32x1 .f32)
    (v11 : Vec Ideal S1 .f32) (v1125 v1129 : Vec Ideal S1x1x256 .f32)
    (hS : ∀ p q : Fin 256, Cert.KernelIdeal.Block.scoreTile (F := Ideal) v0 v5 v7 v8 v9 v10 v11 (ix2 p q)
      = Cert.PairScore.score v5 v7 v8 v9 v10 v11 (v0 (ix3 (0 : Fin 1) p q)))
    (hT : ∀ p q : Fin 256, Cert.KernelIdeal.Block.scoreTileT (F := Ideal) v2 v5 v7 v8 v9 v10 v11 (ix2 p q)
      = Cert.PairScore.score v5 v7 v8 v9 v10 v11 (v2 (ix3 (0 : Fin 1) q p)))
    (p q : Fin 256) :
    Cert.KernelIdeal.Block.storedTile (F := Ideal) i v0 v2 v5 v7 v8 v9 v10 v11 v1125 v1129 (ix3 (0 : Fin 1) p q)
      = ((Ideal.ofBits .f32 0x3F000000#32
            * (Cert.PairScore.score v5 v7 v8 v9 v10 v11 (v0 (ix3 (0 : Fin 1) p q))
              + Cert.PairScore.score v5 v7 v8 v9 v10 v11 (v2 (ix3 (0 : Fin 1) q p))))
          * (v1125 (ix3 (0 : Fin 1) (0 : Fin 1) p) * v1129 (ix3 (0 : Fin 1) (0 : Fin 1) q)))
        * (if (i 1).val * 256 + p.val ≠ (i 2).val * 256 + q.val then (1 : EReal) else 0) := by
  unfold Block.storedTile
  rw [pay1_at, hS, hT, pair_at, rowWord_at, colWord_at, lane_at]
  have h1 : (i 1).val < 4 := (i 1).isLt
  have h2 : (i 2).val < 4 := (i 2).isLt
  have hw := word_eq_iff (i 1).val (i 2).val p.val q.val h1 h2 p.isLt q.isLt
  by_cases hne : (i 1).val * 256 + p.val = (i 2).val * 256 + q.val
  · rw [if_neg (fun h => h (hw.mpr hne)), if_neg (fun h => h hne)]
  · rw [if_pos (fun h => hne (hw.mp h)), if_pos hne]

end Cert.KernelIdeal.BlockStored

end
-- ==== Proof.RefValue.lean ====
/-
  The reference program's result array is the common function `Cert.PairScore.result` of the argument arrays.

  The reference lifts every similarity sim[b,p,q] to a row of 32 numbers sim[b,p,q] * w1[0,h] + b1[h], clamps at zero,
  contracts the row with w2 and adds b2, clamps again, contracts with the column w3 and adds b3, and forms
  1 / (1 + exp (-z)) of the outcome z, which is the logistic of z. Read at the entry (b,p,q,h) of the rank-4 arrays these
  are the two hidden layers and the score of the similarity sim[b,p,q]; the sums run over the hidden unit in the same
  order on both sides. The score is kept where the mask holds at both nodes (the conjunction of the two bits) and replaced
  by zero elsewhere; the array is added to its transpose in the two node axes, halved, and multiplied by one minus the
  identity matrix, whose entry is read off two node numbers compared as 32-bit words.

  At an entry (b,p,q) this is (1/2 * (g p q + g q p)) * d p q, with g the gated score and d the off-diagonal indicator:
  with both bits set and p different from q it is 1/2 * (score + score) * 1; on the diagonal it is a product with zero;
  with a bit clear both gated scores are zero. Only x + 0 = x, x * 0 = 0 * x = 0 and x * 1 = x on the extended reals are
  used, so no input needs to be finite.
-/
import proofs.«173317_j58007828300453_2_alg».proof.Proof.Gen.ReferenceIdeal.Read
import proofs.«173317_j58007828300453_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.PairScore

/-- The word 0x3F800000 is the number one. -/
theorem ofBits_one_f32 : Ideal.ofBits .f32 0x3F800000#32 = 1 := by
  simp [Ideal.ofBits, Ideal.ieee, -EReal.coe_mul]; norm_num

/-! ## First hidden layer: entry (b, p, q, h) of the rank-4 array is hid1 of sim[b, p, q] at unit h -/

theorem idx_sim (b : Fin 8) (p q : Fin 1024) (h : Fin 32) :
    idx_main_v5 (idx_main_v8 (ix4 b p q h)) = ix3 b p q :=
  funext fun a => Fin.ext (by match a with | ⟨0, _⟩ => rfl | ⟨1, _⟩ => rfl | ⟨2, _⟩ => rfl)

theorem idx_w1 (b : Fin 8) (p q : Fin 1024) (h : Fin 32) :
    idx_main_v6 (idx_main_v7 (idx_main_v9 (ix4 b p q h))) = ix2 (0 : Fin 1) h :=
  funext fun a => Fin.ext (by
    match a with
    | ⟨0, _⟩ => rfl
    | ⟨1, _⟩ => exact Nat.mod_eq_of_lt h.isLt)

theorem idx_b1 (b : Fin 8) (p q : Fin 1024) (h : Fin 32) :
    idx_main_v11 (idx_main_v12 (ix4 b p q h)) = ix1 h :=
  funext fun a => Fin.ext (by match a with | ⟨0, _⟩ => rfl)

theorem layer1_at (x0 : (⟨S8x1024x1024, .f32⟩ : BufTy).Contents (Elt Ideal)) (x2 : (⟨S1x32, .f32⟩ : BufTy).Contents (Elt Ideal))
    (x3 : (⟨S32, .f32⟩ : BufTy).Contents (Elt Ideal)) (b : Fin 8) (p q : Fin 1024) (h : Fin 32) :
    val_main_v14 (F := Ideal) x0 x2 x3 (ix4 b p q h) = hid1 x2 x3 (x0 (ix3 b p q)) h := by
  rw [val_main_v14_apply, val_main_v13_apply, val_main_v10_apply, val_main_v8_apply, val_main_v5_apply,
    val_main_v9_apply, val_main_v7_apply, val_main_v6_apply, val_main_v12_apply, val_main_v11_apply,
    val_main_call0_v0_apply, val_main_call0_cst_apply, idx_sim, idx_w1, idx_b1]
  show max (x0 (ix3 b p q) * x2 (ix2 (0 : Fin 1) h) + x3 (ix1 h)) (Ideal.ofBits .f32 0x00000000#32) = _
  rw [Ideal.ofBits_zero_f32]
  rfl

/-! ## Second hidden layer -/

theorem lidx15 (b : Fin 8) (p q : Fin 1024) (k h : Fin 32) :
    lidx_main_v15 (ix4 b p q k) h = ix4 b p q h :=
  funext fun a => Fin.ext (by match a with | ⟨0, _⟩ => rfl | ⟨1, _⟩ => rfl | ⟨2, _⟩ => rfl | ⟨3, _⟩ => rfl)

theorem ridx15 (b : Fin 8) (p q : Fin 1024) (k h : Fin 32) :
    ridx_main_v15 (ix4 b p q k) h = ix2 h k :=
  funext fun a => Fin.ext (by match a with | ⟨0, _⟩ => rfl | ⟨1, _⟩ => rfl)

theorem idx_b2 (b : Fin 8) (p q : Fin 1024) (k : Fin 32) :
    idx_main_v16 (idx_main_v17 (ix4 b p q k)) = ix1 k :=
  funext fun a => Fin.ext (by match a with | ⟨0, _⟩ => rfl)

theorem layer2_at (x0 : (⟨S8x1024x1024, .f32⟩ : BufTy).Contents (Elt Ideal)) (x2 : (⟨S1x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (b : Fin 8) (p q : Fin 1024) (k : Fin 32) :
    val_main_v19 (F := Ideal) x0 x2 x3 x4 x5 (ix4 b p q k) = hid2 x2 x3 x4 x5 (x0 (ix3 b p q)) k := by
  rw [val_main_v19_apply, val_main_v18_apply, val_main_v15_apply, val_main_v17_apply, val_main_v16_apply,
    val_main_call1_v0_apply, val_main_call1_cst_apply, idx_b2]
  simp only [lidx15, ridx15, layer1_at]
  show max ((∑ h : Fin 32, hid1 x2 x3 (x0 (ix3 b p q)) h * x4 (ix2 h k)) + x5 (ix1 k)) (Ideal.ofBits .f32 0x00000000#32) = _
  rw [Ideal.ofBits_zero_f32]
  rfl

/-! ## The output unit and the logistic -/

theorem lidx20 (b : Fin 8) (p q : Fin 1024) (k : Fin 32) :
    lidx_main_v20 (ix4 b p q (0 : Fin 1)) k = ix4 b p q k :=
  funext fun a => Fin.ext (by match a with | ⟨0, _⟩ => rfl | ⟨1, _⟩ => rfl | ⟨2, _⟩ => rfl | ⟨3, _⟩ => rfl)

theorem ridx20 (b : Fin 8) (p q : Fin 1024) (k : Fin 32) :
    ridx_main_v20 (ix4 b p q (0 : Fin 1)) k = ix2 k (0 : Fin 1) :=
  funext fun a => Fin.ext (by match a with | ⟨0, _⟩ => rfl | ⟨1, _⟩ => rfl)

theorem idx_b3 (b : Fin 8) (p q : Fin 1024) :
    idx_main_v21 (idx_main_v22 (ix4 b p q (0 : Fin 1))) = ix1 (0 : Fin 1) :=
  funext fun a => Fin.ext (by match a with | ⟨0, _⟩ => rfl)

theorem score_at4 (x0 : (⟨S8x1024x1024, .f32⟩ : BufTy).Contents (Elt Ideal)) (x2 : (⟨S1x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x1, .f32⟩ : BufTy).Contents (Elt Ideal))
    (x7 : (⟨S1, .f32⟩ : BufTy).Contents (Elt Ideal)) (b : Fin 8) (p q : Fin 1024) :
    val_main_v29 (F := Ideal) x0 x2 x3 x4 x5 x6 x7 (ix4 b p q (0 : Fin 1)) = score x2 x3 x4 x5 x6 x7 (x0 (ix3 b p q)) := by
  rw [val_main_v29_apply, val_main_v28_apply, val_main_cst_0_apply, val_main_v27_apply, val_main_v26_apply,
    val_main_cst_apply, val_main_v25_apply, val_main_v24_apply, val_main_v23_apply, val_main_v20_apply,
    val_main_v22_apply, val_main_v21_apply, idx_b3]
  simp only [lidx20, ridx20, layer2_at]
  show Ideal.div (Ideal.ofBits .f32 0x3F800000#32) (Ideal.ofBits .f32 0x3F800000#32
      + Ideal.exp (-((∑ k : Fin 32, hid2 x2 x3 x4 x5 (x0 (ix3 b p q)) k * x6 (ix2 k (0 : Fin 1))) + x7 (ix1 (0 : Fin 1))))) = _
  rw [ofBits_one_f32]
  rfl

theorem idx_flat (b : Fin 8) (p q : Fin 1024) :
    idx_main_v30 (ix3 b p q) = ix4 b p q (0 : Fin 1) :=
  funext fun a => Fin.ext (by
    have hb : b.val < 8 := b.isLt
    have hp : p.val < 1024 := p.isLt
    have hq : q.val < 1024 := q.isLt
    match a with
    | ⟨0, _⟩ => show ((b.val * 1024 + p.val) * 1024 + q.val) / 1048576 = b.val; omega
    | ⟨1, _⟩ => show ((b.val * 1024 + p.val) * 1024 + q.val) / 1024 % 1024 = p.val; omega
    | ⟨2, _⟩ => show ((b.val * 1024 + p.val) * 1024 + q.val) / 1 % 1024 = q.val; omega
    | ⟨3, _⟩ => rfl)

theorem score_at (x0 : (⟨S8x1024x1024, .f32⟩ : BufTy).Contents (Elt Ideal)) (x2 : (⟨S1x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x1, .f32⟩ : BufTy).Contents (Elt Ideal))
    (x7 : (⟨S1, .f32⟩ : BufTy).Contents (Elt Ideal)) (b : Fin 8) (p q : Fin 1024) :
    val_main_v30 (F := Ideal) x0 x2 x3 x4 x5 x6 x7 (ix3 b p q) = score x2 x3 x4 x5 x6 x7 (x0 (ix3 b p q)) := by
  rw [val_main_v30_apply, idx_flat, score_at4]

/-! ## The mask pair: the score where both nodes are valid, zero elsewhere -/

theorem idx_maskRow (b : Fin 8) (p q : Fin 1024) :
    idx_main_v0 (idx_main_v2 (ix3 b p q)) = ix2 b p :=
  funext fun a => Fin.ext (by match a with | ⟨0, _⟩ => rfl | ⟨1, _⟩ => rfl)

theorem idx_maskCol (b : Fin 8) (p q : Fin 1024) :
    idx_main_v1 (idx_main_v3 (ix3 b p q)) = ix2 b q :=
  funext fun a => Fin.ext (by match a with | ⟨0, _⟩ => rfl | ⟨1, _⟩ => rfl)

theorem gated_at (x0 : (⟨S8x1024x1024, .f32⟩ : BufTy).Contents (Elt Ideal)) (x1 : (⟨S8x1024, .i1⟩ : BufTy).Contents (Elt Ideal))
    (x2 : (⟨S1x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x1, .f32⟩ : BufTy).Contents (Elt Ideal))
    (x7 : (⟨S1, .f32⟩ : BufTy).Contents (Elt Ideal)) (b : Fin 8) (p q : Fin 1024) :
    val_main_v31 (F := Ideal) x0 x1 x2 x3 x4 x5 x6 x7 (ix3 b p q)
      = Scalar.select (IntOp.andi (x1 (ix2 b p)) (x1 (ix2 b q))) (score x2 x3 x4 x5 x6 x7 (x0 (ix3 b p q))) 0 := by
  rw [val_main_v31_apply, val_main_v4_apply, val_main_v2_apply, val_main_v0_apply, val_main_v3_apply, val_main_v1_apply,
    val_main_call2_v0_apply, val_main_cst_1_apply, idx_maskRow, idx_maskCol, score_at]
  show Scalar.select _ _ (Ideal.ofBits .f32 0x00000000#32) = _
  rw [Ideal.ofBits_zero_f32]

/-! ## One minus the identity matrix -/

theorem idx_eye (b : Fin 8) (p q : Fin 1024) :
    idx_main_v44 (idx_main_v45 (ix3 b p q)) = ix2 p q :=
  funext fun a => Fin.ext (by match a with | ⟨0, _⟩ => rfl | ⟨1, _⟩ => rfl)

/-- Two node numbers below 1024 are equal exactly when their 32-bit words are. -/
theorem word_eq_iff (p q : Fin 1024) : BitVec.ofNat 32 p.val = BitVec.ofNat 32 q.val ↔ p = q := by
  constructor
  · intro h
    have h' := congrArg BitVec.toNat h
    rw [BitVec.toNat_ofNat, BitVec.toNat_ofNat] at h'
    have hp : p.val < 1024 := p.isLt
    have hq : q.val < 1024 := q.isLt
    exact Fin.ext (by omega)
  · intro h; rw [h]

theorem offdiag_at (b : Fin 8) (p q : Fin 1024) :
    val_main_v45 (F := Ideal) (ix3 b p q) = if p = q then 0 else 1 := by
  rw [val_main_v45_apply, val_main_v44_apply, idx_eye, val_main_v43_apply, val_main_v42_apply, val_main_cst_3_apply,
    val_main_v41_apply, val_main_v40_apply, val_main_v39_apply, val_main_v36_apply, val_main_v38_apply, val_main_c_apply,
    val_main_v37_apply]
  show Ideal.ofBits .f32 0x3F800000#32
      - (((BitVec.ofBool (BitVec.ofNat 32 p.val + 0#32 == BitVec.ofNat 32 q.val)).toNat : ℝ) : EReal) = _
  rw [ofBits_one_f32, BitVec.add_zero]
  by_cases hpq : p = q
  · rw [if_pos hpq, hpq, beq_self_eq_true]
    show (1 : EReal) - ((1 : ℕ) : ℝ) = 0
    rw [Nat.cast_one, EReal.coe_one, ← EReal.coe_one, ← EReal.coe_sub, sub_self, EReal.coe_zero]
  · rw [if_neg hpq, beq_eq_false_iff_ne.mpr (fun h => hpq ((word_eq_iff p q).mp h))]
    show (1 : EReal) - ((0 : ℕ) : ℝ) = 1
    rw [Nat.cast_zero, EReal.coe_zero, sub_zero]

/-! ## The whole result -/

theorem idx_swap (b : Fin 8) (p q : Fin 1024) : idx_main_v32 (ix3 b p q) = ix3 b q p :=
  funext fun a => Fin.ext (by match a with | ⟨0, _⟩ => rfl | ⟨1, _⟩ => rfl | ⟨2, _⟩ => rfl)

theorem result_at (x0 : (⟨S8x1024x1024, .f32⟩ : BufTy).Contents (Elt Ideal)) (x1 : (⟨S8x1024, .i1⟩ : BufTy).Contents (Elt Ideal))
    (x2 : (⟨S1x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x1, .f32⟩ : BufTy).Contents (Elt Ideal))
    (x7 : (⟨S1, .f32⟩ : BufTy).Contents (Elt Ideal)) (b : Fin 8) (p q : Fin 1024) :
    val_main_v46 (F := Ideal) x0 x1 x2 x3 x4 x5 x6 x7 (ix3 b p q) = pairAt x0 x1 x2 x3 x4 x5 x6 x7 b p q := by
  rw [val_main_v46_apply, val_main_v35_apply, val_main_v34_apply, val_main_cst_2_apply, val_main_v33_apply,
    val_main_v32_apply, idx_swap, gated_at, gated_at, offdiag_at]
  show (Ideal.ofBits .f32 0x3F000000#32
      * (Scalar.select (IntOp.andi (x1 (ix2 b p)) (x1 (ix2 b q))) (score x2 x3 x4 x5 x6 x7 (x0 (ix3 b p q))) 0
        + Scalar.select (IntOp.andi (x1 (ix2 b q)) (x1 (ix2 b p))) (score x2 x3 x4 x5 x6 x7 (x0 (ix3 b q p))) 0))
      * (if p = q then 0 else 1) = _
  unfold pairAt
  have a00 : IntOp.andi (0#1 : BitVec 1) 0#1 = 0#1 := by decide
  have a01 : IntOp.andi (0#1 : BitVec 1) 1#1 = 0#1 := by decide
  have a10 : IntOp.andi (1#1 : BitVec 1) 0#1 = 0#1 := by decide
  have a11 : IntOp.andi (1#1 : BitVec 1) 1#1 = 1#1 := by decide
  rcases BitVec.eq_zero_or_eq_one (x1 (ix2 b p)) with hp | hp <;>
    rcases BitVec.eq_zero_or_eq_one (x1 (ix2 b q)) with hq | hq <;> rw [hp, hq]
  · have hc : ¬(p ≠ q ∧ (0#1 : BitVec 1) = 1#1 ∧ (0#1 : BitVec 1) = 1#1) := fun h => absurd h.2.1 (by decide)
    rw [if_neg hc, a00, select_zero, select_zero, add_zero, mul_zero, zero_mul]
  · have hc : ¬(p ≠ q ∧ (0#1 : BitVec 1) = 1#1 ∧ (1#1 : BitVec 1) = 1#1) := fun h => absurd h.2.1 (by decide)
    rw [if_neg hc, a01, a10, select_zero, select_zero, add_zero, mul_zero, zero_mul]
  · have hc : ¬(p ≠ q ∧ (1#1 : BitVec 1) = 1#1 ∧ (0#1 : BitVec 1) = 1#1) := fun h => absurd h.2.2 (by decide)
    rw [if_neg hc, a01, a10, select_zero, select_zero, add_zero, mul_zero, zero_mul]
  · rw [a11, select_one, select_one]
    by_cases hpq : p = q
    · have hc : ¬(p ≠ q ∧ (1#1 : BitVec 1) = 1#1 ∧ (1#1 : BitVec 1) = 1#1) := fun h => h.1 hpq
      rw [if_neg hc, if_pos hpq, mul_zero]
    · have hc : p ≠ q ∧ (1#1 : BitVec 1) = 1#1 ∧ (1#1 : BitVec 1) = 1#1 := ⟨hpq, rfl, rfl⟩
      rw [if_pos hc, if_neg hpq, mul_one]

/-- The reference's result array is the common function of the argument arrays. -/
theorem val_main_v46_eq_result (x0 : (⟨S8x1024x1024, .f32⟩ : BufTy).Contents (Elt Ideal)) (x1 : (⟨S8x1024, .i1⟩ : BufTy).Contents (Elt Ideal))
    (x2 : (⟨S1x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x1, .f32⟩ : BufTy).Contents (Elt Ideal))
    (x7 : (⟨S1, .f32⟩ : BufTy).Contents (Elt Ideal)) :
    Cert.ReferenceIdeal.Read.val_main_v46 (F := Ideal) x0 x1 x2 x3 x4 x5 x6 x7 = Cert.PairScore.result x0 x1 x2 x3 x4 x5 x6 x7 := by
  funext i
  obtain ⟨b, p, q, rfl⟩ : ∃ (b : Fin 8) (p q : Fin 1024), i = ix3 b p q := ⟨i 0, i 1, i 2, eq_ix3 i⟩
  exact result_at x0 x1 x2 x3 x4 x5 x6 x7 b p q

end Cert.ReferenceIdeal.RefValue

end
-- ==== Proof.lean ====
/-
  The certificate's five claims.

  Both programs compute, at batch b and nodes i and j, one half of score sim[b,i,j] + score sim[b,j,i] when i and j are
  different nodes that are both valid in batch b, and zero otherwise, where score is the logistic of a perceptron
  with two hidden layers of 32 rectified units applied to the one similarity (proof/Proof/Spec.lean). The kernel
  computes it tile by tile: it multiplies by the two mask values as floats and by the indicator of i ≠ j, and adds the
  32 terms of the last layer to the bias one after the other; the reference selects on the conjunction of the mask
  bits, multiplies by one minus the identity matrix and adds the bias to the sum. On the extended reals the two agree
  for every input, by commutativity and associativity of sum and product and because x·1 = x and x·0 = 0 there; the
  precondition is not used for the values.

  The kernel reads the similarity array through two windows (the tile and the transposed position's tile) and the
  float mask through two (its rows' and its columns' stretches); its frame holds each of those arrays in two halves
  of the full share. The ideal pass rewrote nothing, so the kernel's idealization is its own text read over the
  extended reals.
-/
import proofs.«173317_j58007828300453_2_alg».proof.Defs
import proofs.«173317_j58007828300453_2_alg».proof.Proof.Gen.Kernel
import proofs.«173317_j58007828300453_2_alg».proof.Proof.Gen.KernelIdeal
import proofs.«173317_j58007828300453_2_alg».proof.Proof.Gen.ReferenceIdeal
import proofs.«173317_j58007828300453_2_alg».proof.Proof.Gen.Pre_finite_inputs
import proofs.«173317_j58007828300453_2_alg».proof.Proof.K.Run
import proofs.«173317_j58007828300453_2_alg».proof.Proof.KI.Value
import proofs.«173317_j58007828300453_2_alg».proof.Proof.BlockValue
import proofs.«173317_j58007828300453_2_alg».proof.Proof.BlockStored
import proofs.«173317_j58007828300453_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments unchanged. -/
theorem frame_kernel : Cert.frame_Kernel := fun m ρ _ => Cert.Kernel.Hand.frame m ρ

/-- So does its reading over the extended reals. -/
theorem frame_kernelIdeal : Cert.frame_KernelIdeal := fun m ρ _ => Cert.KernelIdeal.Hand.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Entry (p, q) of the tile a grid point stores, from the vectors it loads: the two score tiles read at (p, q), then
    the masks and the off-diagonal indicator. -/
theorem blockFact : Cert.KernelIdeal.HandValue.BlockFact := fun i v0 v2 v5 v7 v8 v9 v10 v11 v1125 v1129 p q =>
  Cert.KernelIdeal.BlockStored.storedTile_apply_of i v0 v2 v5 v7 v8 v9 v10 v11 v1125 v1129
    (fun p q => Cert.KernelIdeal.BlockValue.scoreTile_apply v0 v5 v7 v8 v9 v10 v11 p q)
    (fun p q => Cert.KernelIdeal.BlockValue.scoreTileT_apply v2 v5 v7 v8 v9 v10 v11 p q) p q

/-- Over the extended reals both programs end with the result array at the common function of arguments that agree. -/
theorem algebraic : Cert.algebraic_KernelIdeal_ReferenceIdeal := by
  intro m ρ m' ρ' _ hagree
  refine ⟨fun c => Cert.PairScore.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.HandValue.run m ρ blockFact, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v46_eq, Cert.ReferenceIdeal.RefValue.val_main_v46_eq_result,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
